-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v104) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x768 : Shape := ⟨3, ![128, 1024, 768]⟩
abbrev S128x1024 : Shape := ⟨2, ![128, 1024]⟩
abbrev S128x10x768 : Shape := ⟨3, ![128, 10, 768]⟩
abbrev S128x10 : Shape := ⟨2, ![128, 10]⟩
abbrev S_ : Shape := ⟨0, ![]⟩

class Facts : Prop where
  bcast_S_S128x1024x768 : S_.BroadcastsInDim S128x1024x768 (![] : Fin 0 → Fin S128x1024x768.rank)
  reducesTo_S128x1024x768_S_d0_1_2 : S128x1024x768.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128x10x768 : S_.BroadcastsInDim S128x10x768 (![] : Fin 0 → Fin S128x10x768.rank)
  reducesTo_S128x10x768_S_d0_1_2 : S128x10x768.ReducesTo [0, 1, 2] S_
  bcast_S_S128x10 : S_.BroadcastsInDim S128x10 (![] : Fin 0 → Fin S128x10.rank)
  reducesTo_S128x10_S_d0_1 : S128x10.ReducesTo [0, 1] S_

variable [Facts]

def fn_part1 {F : FTy → Type} [FloatOps F] (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  main_v18

def fn {F : FTy → Type} [FloatOps F] (main_arg0 : FVec F S128x1024x768 .f32) (main_arg1 : FVec F S128x1024 .f32) (main_arg2 : FVec F S128x10x768 .f32) (main_arg3 : FVec F S128x10 .f32) : IVec S_ 1 :=
  let main_v0 : FVec F S128x1024x768 .f32 := Host.absf main_arg0
  let main_cst : FVec F S_ .f32 := constant S_ .f32 0x7F800000#32
  let main_v1 : FVec F S128x1024x768 .f32 := broadcastInDim S128x1024x768 ![] bcast_S_S128x1024x768 main_cst
  let main_v2 : IVec S128x1024x768 1 := cmpf .olt main_v0 main_v1
  let main_c : IVec S_ 1 := constantI S_ 1 1#1
  let main_v3 : IVec S_ 1 := (fun x v => Host.reduce IntOp.andi x v reducesTo_S128x1024x768_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x10x768 .f32 := Host.absf main_arg2
  let main_cst_2 : FVec F S_ .f32 := constant S_ .f32 0x7F800000#32
  let main_v10 : FVec F S128x10x768 .f32 := broadcastInDim S128x10x768 ![] bcast_S_S128x10x768 main_cst_2
  let main_v11 : IVec S128x10x768 1 := cmpf .olt main_v9 main_v10
  let main_c_3 : IVec S_ 1 := constantI S_ 1 1#1
  let main_v12 : IVec S_ 1 := (fun x v => Host.reduce IntOp.andi x v reducesTo_S128x10x768_S_d0_1_2 h_S_) main_v11 main_c_3
  let main_v13 : IVec S_ 1 := andi main_v8 main_v12
  let main_v14 : FVec F S128x10 .f32 := Host.absf main_arg3
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_v13 main_v16
-- ==== Kernel.lean ====
abbrev S128x1024x768 : Shape := ⟨3, ![128, 1024, 768]⟩
abbrev S128x1024 : Shape := ⟨2, ![128, 1024]⟩
abbrev S128x10x768 : Shape := ⟨3, ![128, 10, 768]⟩
abbrev S128x10 : Shape := ⟨2, ![128, 10]⟩
abbrev S128x1x1024 : Shape := ⟨3, ![128, 1, 1024]⟩
abbrev S128x1x10 : Shape := ⟨3, ![128, 1, 10]⟩
abbrev S128x1x1536 : Shape := ⟨3, ![128, 1, 1536]⟩
abbrev S128x10x1024 : Shape := ⟨3, ![128, 10, 1024]⟩
abbrev S1x1024x768 : Shape := ⟨3, ![1, 1024, 768]⟩
abbrev S1x10x768 : Shape := ⟨3, ![1, 10, 768]⟩
abbrev S1x1x1024 : Shape := ⟨3, ![1, 1, 1024]⟩
abbrev S1x1x10 : Shape := ⟨3, ![1, 1, 10]⟩
abbrev S1x1x1536 : Shape := ⟨3, ![1, 1, 1536]⟩
abbrev S1x10x1024 : Shape := ⟨3, ![1, 10, 1024]⟩
abbrev S1024 : Shape := ⟨1, ![1024]⟩
abbrev S10 : Shape := ⟨1, ![10]⟩
abbrev S1024x768 : Shape := ⟨2, ![1024, 768]⟩
abbrev S1024x1 : Shape := ⟨2, ![1024, 1]⟩
abbrev S10x768 : Shape := ⟨2, ![10, 768]⟩
abbrev S10x1 : Shape := ⟨2, ![10, 1]⟩
abbrev S768x1024 : Shape := ⟨2, ![768, 1024]⟩
abbrev S10x1024 : Shape := ⟨2, ![10, 1024]⟩
abbrev S1x1024 : Shape := ⟨2, ![1, 1024]⟩
abbrev S1024x10 : Shape := ⟨2, ![1024, 10]⟩
abbrev S1x10 : Shape := ⟨2, ![1, 10]⟩
abbrev S768 : Shape := ⟨1, ![768]⟩
abbrev S1536 : Shape := ⟨1, ![1536]⟩
abbrev S128x1536 : Shape := ⟨2, ![128, 1536]⟩

abbrev nBuf : Space → Nat
  | .hbm => 13
  | .vmem => 20
  | .smem => 0
  | _ => 0

abbrev bufTy : (tb : Table) → Fin (tcTables nBuf tb) → BufTy
  | .hbm, ⟨0, _⟩ => ⟨S128x1024x768, .f32⟩
  | .hbm, ⟨1, _⟩ => ⟨S128x1024, .f32⟩
  | .hbm, ⟨2, _⟩ => ⟨S128x10x768, .f32⟩
  | .hbm, ⟨3, _⟩ => ⟨S128x10, .f32⟩
  | .hbm, ⟨4, _⟩ => ⟨S128x1x1024, .f32⟩
  | .hbm, ⟨5, _⟩ => ⟨S128x1x10, .f32⟩
  | .hbm, ⟨6, _⟩ => ⟨S128x1x1536, .f32⟩
  | .hbm, ⟨7, _⟩ => ⟨S128x10x1024, .f32⟩
  | .hbm, ⟨8, _⟩ => ⟨S128x10x1024, .f32⟩
  | .hbm, ⟨9, _⟩ => ⟨S128x10x1024, .f32⟩
  | .hbm, ⟨10, _⟩ => ⟨S128x1x1024, .f32⟩
  | .hbm, ⟨11, _⟩ => ⟨S128x1x10, .f32⟩
  | .hbm, ⟨12, _⟩ => ⟨S128x1536, .f32⟩
  | .local _ .vmem, ⟨0, _⟩ => ⟨S1x1024x768, .f32⟩
  | .local _ .vmem, ⟨1, _⟩ => ⟨S1x1024x768, .f32⟩
  | .local _ .vmem, ⟨2, _⟩ => ⟨S1x10x768, .f32⟩
  | .local _ .vmem, ⟨3, _⟩ => ⟨S1x10x768, .f32⟩
  | .local _ .vmem, ⟨4, _⟩ => ⟨S1x1x1024, .f32⟩
  | .local _ .vmem, ⟨5, _⟩ => ⟨S1x1x1024, .f32⟩
  | .local _ .vmem, ⟨6, _⟩ => ⟨S1x1x10, .f32⟩
  | .local _ .vmem, ⟨7, _⟩ => ⟨S1x1x10, .f32⟩
  | .local _ .vmem, ⟨8, _⟩ => ⟨S1x1x1536, .f32⟩
  | .local _ .vmem, ⟨9, _⟩ => ⟨S1x1x1536, .f32⟩
  | .local _ .vmem, ⟨10, _⟩ => ⟨S1x10x1024, .f32⟩
  | .local _ .vmem, ⟨11, _⟩ => ⟨S1x10x1024, .f32⟩
  | .local _ .vmem, ⟨12, _⟩ => ⟨S1x10x1024, .f32⟩
  | .local _ .vmem, ⟨13, _⟩ => ⟨S1x10x1024, .f32⟩
  | .local _ .vmem, ⟨14, _⟩ => ⟨S1x10x1024, .f32⟩
  | .local _ .vmem, ⟨15, _⟩ => ⟨S1x10x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x10, .f32⟩
  | .local _ .vmem, ⟨19, _⟩ => ⟨S1x1x10, .f32⟩
  | _, _ => ⟨S128x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x10x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x10x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x10x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S128x1024_S128x1x1024_0_2 : S128x1024.BroadcastsInDim S128x1x1024 (![0, 2] : Fin 2 → Fin S128x1x1024.rank)
  bcast_S128x10_S128x1x10_0_2 : S128x10.BroadcastsInDim S128x1x10 (![0, 2] : Fin 2 → Fin S128x1x10.rank)
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  inb_S1x1x10_S1x1x10_0_0_0 : ∀ a, (![0, 0, 0] : Fin 3 → Nat) a + S1x1x10.size a ≤ S1x1x10.size a
  h_S1x1x10 : 0 < S1x1x10.numel
  shapeCasts_S1x1x10_S10 : S1x1x10.ShapeCasts S10
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024_S1024x1 : S1024.ShapeCasts S1024x1
  broadcasts_S1024x1_S1024x768 : S1024x1.Broadcasts S1024x768
  inb_S1x10x768_S1x10x768_0_0_0 : ∀ a, (![0, 0, 0] : Fin 3 → Nat) a + S1x10x768.size a ≤ S1x10x768.size a
  h_S1x10x768 : 0 < S1x10x768.numel
  shapeCasts_S1x10x768_S10x768 : S1x10x768.ShapeCasts S10x768
  shapeCasts_S10_S10x1 : S10.ShapeCasts S10x1
  broadcasts_S10x1_S10x768 : S10x1.Broadcasts S10x768
  bitsLt_bf16_f32 : FTy.bits .bf16 < FTy.bits .f32
  transposes_S1024x768_p1_0_S768x1024 : S1024x768.Transposes [1, 0] S768x1024
  reduces_S1024x768_S1024 : S1024x768.Reduces [1] S1024
  reduces_S10x768_S10 : S10x768.Reduces [1] S10
  shapeCasts_S1024_S1x1024 : S1024.ShapeCasts S1x1024
  broadcasts_S10x1_S10x1024 : S10x1.Broadcasts S10x1024
  broadcasts_S1x1024_S10x1024 : S1x1024.Broadcasts S10x1024
  transposes_S10x1024_p1_0_S1024x10 : S10x1024.Transposes [1, 0] S1024x10
  shapeCasts_S10_S1x10 : S10.ShapeCasts S1x10
  broadcasts_S1x10_S1024x10 : S1x10.Broadcasts S1024x10
  reduces_S1024x10_S1024 : S1024x10.Reduces [1] S1024
  broadcasts_S1024x1_S1024x10 : S1024x1.Broadcasts S1024x10
  reduces_S10x1024_S10 : S10x1024.Reduces [1] S10
  reduces_S10x768_S768 : S10x768.Reduces [0] S768
  reduces_S1024x768_S768 : S1024x768.Reduces [0] S768
  concatenates_S768_S768_S1536_d0 : Shape.Concatenates [S768, S768] S1536 0
  inb_S1x1x1536_S1x1x1536_0_0_0 : ∀ a, (![0, 0, 0] : Fin 3 → Nat) a + S1x1x1536.size a ≤ S1x1x1536.size a
  h_S1x1x1536 : 0 < S1x1x1536.numel
  shapeCasts_S1x1x1536_S1536 : S1x1x1536.ShapeCasts S1536
  shapeCasts_S1536_S1x1x1536 : S1536.ShapeCasts S1x1x1536
  inb_S1x10x1024_S1x10x1024_0_0_0 : ∀ a, (![0, 0, 0] : Fin 3 → Nat) a + S1x10x1024.size a ≤ S1x10x1024.size a
  h_S1x10x1024 : 0 < S1x10x1024.numel
  shapeCasts_S1x10x1024_S10x1024 : S1x10x1024.ShapeCasts S10x1024
  shapeCasts_S10x1024_S1x10x1024 : S10x1024.ShapeCasts S1x10x1024
  transposes_S1024x10_p1_0_S10x1024 : S1024x10.Transposes [1, 0] S10x1024
  shapeCasts_S1x1x1024_S1x1024 : S1x1x1024.ShapeCasts S1x1024
  shapeCasts_S1x1024_S1x1x1024 : S1x1024.ShapeCasts S1x1x1024
  shapeCasts_S1x1x10_S1x10 : S1x1x10.ShapeCasts S1x10
  shapeCasts_S1x10_S1x1x10 : S1x10.ShapeCasts S1x1x10
  shapeCasts_S128x1x1536_S128x1536 : S128x1x1536.ShapeCasts S128x1536
  dot_S10x768_S768x1024_S10x1024_1_0_0_1_n_n_wf : DotDims.WF S10x768 S768x1024 S10x1024 [1] [0] [0] [1] [] []
  dot_S1024x10_S10x768_S1024x768_1_0_0_1_n_n_wf : DotDims.WF S1024x10 S10x768 S1024x768 [1] [0] [0] [1] [] []
  dot_S10x1024_S1024x768_S10x768_1_0_0_1_n_n_wf : DotDims.WF S10x1024 S1024x768 S10x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S128x1024x768.size a
  hwx0_0 : ∀ i : grid0.Coords, EltTy.bits .f32 = 32 ∨ (Rect.block (s := S128x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x768.size a ≤ S128x10x768.size a
  hwx0_1 : ∀ i : grid0.Coords, EltTy.bits .f32 = 32 ∨ (Rect.block (s := S128x10x768) S1x10x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S128x1x1024.size a
  hwx0_2 : ∀ i : grid0.Coords, EltTy.bits .f32 = 32 ∨ (Rect.block (s := S128x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10.size a ≤ S128x1x10.size a
  hwx0_3 : ∀ i : grid0.Coords, EltTy.bits .f32 = 32 ∨ (Rect.block (s := S128x1x10) S1x1x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1536.size a ≤ S128x1x1536.size a
  hwx0_4 : ∀ i : grid0.Coords, EltTy.bits .f32 = 32 ∨ (Rect.block (s := S128x1x1536) S1x1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x10x1024.size a ≤ S128x10x1024.size a
  hwx0_5 : ∀ i : grid0.Coords, EltTy.bits .f32 = 32 ∨ (Rect.block (s := S128x10x1024) S1x10x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x10x1024.size a ≤ S128x10x1024.size a
  hwx0_6 : ∀ i : grid0.Coords, EltTy.bits .f32 = 32 ∨ (Rect.block (s := S128x10x1024) S1x10x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x10x1024.size a ≤ S128x10x1024.size a
  hwx0_7 : ∀ i : grid0.Coords, EltTy.bits .f32 = 32 ∨ (Rect.block (s := S128x10x1024) S1x10x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S128x1x1024.size a
  hwx0_8 : ∀ i : grid0.Coords, EltTy.bits .f32 = 32 ∨ (Rect.block (s := S128x1x1024) S1x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x10.size a ≤ S128x1x10.size a
  hwx0_9 : ∀ i : grid0.Coords, EltTy.bits .f32 = 32 ∨ (Rect.block (s := S128x1x10) S1x1x10.size (cc0_transform_9 i) (hinb0_9 i)).WholeWords (EltTy.packing .f32)

variable [Facts₀]

def dot_S10x768_S768x1024_S10x1024_1_0_0_1_n_n : DotDims S10x768 S768x1024 S10x1024 where
  lhsContracting := [1]
  rhsContracting := [0]
  lhsNonContracting := [0]
  rhsNonContracting := [1]
  lhsBatch := []
  rhsBatch := []
  wf := dot_S10x768_S768x1024_S10x1024_1_0_0_1_n_n_wf
def dot_S1024x10_S10x768_S1024x768_1_0_0_1_n_n : DotDims S1024x10 S10x768 S1024x768 where
  lhsContracting := [1]
  rhsContracting := [0]
  lhsNonContracting := [0]
  rhsNonContracting := [1]
  lhsBatch := []
  rhsBatch := []
  wf := dot_S1024x10_S10x768_S1024x768_1_0_0_1_n_n_wf
def dot_S10x1024_S1024x768_S10x768_1_0_0_1_n_n : DotDims S10x1024 S1024x768 S10x768 where
  lhsContracting := [1]
  rhsContracting := [0]
  lhsNonContracting := [0]
  rhsNonContracting := [1]
  lhsBatch := []
  rhsBatch := []
  wf := dot_S10x1024_S1024x768_S10x768_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x10x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x1536.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x10x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S1x10x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_3) S1x10x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_4) S1x1x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_5) S1x1x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S128x1024x768 : Shape := ⟨3, ![128, 1024, 768]⟩
abbrev S128x1024 : Shape := ⟨2, ![128, 1024]⟩
abbrev S128x10x768 : Shape := ⟨3, ![128, 10, 768]⟩
abbrev S128x10 : Shape := ⟨2, ![128, 10]⟩
abbrev S_ : Shape := ⟨0, ![]⟩
abbrev S128x1x1024 : Shape := ⟨3, ![128, 1, 1024]⟩
abbrev S128x1x10 : Shape := ⟨3, ![128, 1, 10]⟩
abbrev S128x1024x1 : Shape := ⟨3, ![128, 1024, 1]⟩
abbrev S128x10x1 : Shape := ⟨3, ![128, 10, 1]⟩
abbrev S128x10x1024 : Shape := ⟨3, ![128, 10, 1024]⟩
abbrev S128x1024x10 : Shape := ⟨3, ![128, 1024, 10]⟩
abbrev S128x768 : Shape := ⟨2, ![128, 768]⟩
abbrev S128x1536 : Shape := ⟨2, ![128, 1536]⟩

abbrev nBuf : Space → Nat
  | .hbm => 133
  | .vmem => 0
  | .smem => 0
  | _ => 0

abbrev hbmTy0_0 (i : Nat) : BufTy := match i % 128 with
  | 0 => ⟨S128x1024x768, .f32⟩
  | 1 => ⟨S128x1024, .f32⟩
  | 2 => ⟨S128x10x768, .f32⟩
  | 3 => ⟨S128x10, .f32⟩
  | 4 => ⟨S_, .f32⟩
  | 5 => ⟨S128x1024, .f32⟩
  | 6 => ⟨S128x1024, .f32⟩
  | 7 => ⟨S128x1024, .f32⟩
  | 8 => ⟨S_, .f32⟩
  | 9 => ⟨S128x1024, .f32⟩
  | 10 => ⟨S128x1024, .f32⟩
  | 11 => ⟨S128x1x1024, .f32⟩
  | 12 => ⟨S_, .f32⟩
  | 13 => ⟨S128x10, .f32⟩
  | 14 => ⟨S128x10, .f32⟩
  | 15 => ⟨S128x10, .f32⟩
  | 16 => ⟨S_, .f32⟩
  | 17 => ⟨S128x10, .f32⟩
  | 18 => ⟨S128x10, .f32⟩
  | 19 => ⟨S128x1x10, .f32⟩
  | 20 => ⟨S128x1024x1, .f32⟩
  | 21 => ⟨S128x1024x768, .f32⟩
  | 22 => ⟨S128x1024x768, .f32⟩
  | 23 => ⟨S128x10x1, .f32⟩
  | 24 => ⟨S128x10x768, .f32⟩
  | 25 => ⟨S128x10x768, .f32⟩
  | 26 => ⟨S128x10x1024, .f32⟩
  | 27 => ⟨S128x1024x768, .f32⟩
  | 28 => ⟨S_, .f32⟩
  | 29 => ⟨S128x1024, .f32⟩
  | 30 => ⟨S_, .f32⟩
  | 31 => ⟨S128x1024, .f32⟩
  | 32 => ⟨S128x1024, .f32⟩
  | 33 => ⟨S128x1024, .f32⟩
  | 34 => ⟨S128x10x768, .f32⟩
  | 35 => ⟨S_, .f32⟩
  | 36 => ⟨S128x10, .f32⟩
  | 37 => ⟨S_, .f32⟩
  | 38 => ⟨S128x10, .f32⟩
  | 39 => ⟨S128x10, .f32⟩
  | 40 => ⟨S128x10, .f32⟩
  | 41 => ⟨S128x10x1, .f32⟩
  | 42 => ⟨S128x1x1024, .f32⟩
  | 43 => ⟨S128x10x1024, .f32⟩
  | 44 => ⟨S128x10x1024, .f32⟩
  | 45 => ⟨S128x10x1024, .f32⟩
  | 46 => ⟨S128x10x1024, .f32⟩
  | 47 => ⟨S128x1024x10, .f32⟩
  | 48 => ⟨S128x1024x10, .f32⟩
  | 49 => ⟨S128x1024x10, .f32⟩
  | 50 => ⟨S_, .f32⟩
  | 51 => ⟨S128x1024, .f32⟩
  | 52 => ⟨S_, .f32⟩
  | 53 => ⟨S128x1024, .f32⟩
  | 54 => ⟨S128x1024, .f32⟩
  | 55 => ⟨S128x1024x1, .f32⟩
  | 56 => ⟨S128x1024x10, .f32⟩
  | 57 => ⟨S128x1024x10, .f32⟩
  | 58 => ⟨S128x1024x10, .f32⟩
  | 59 => ⟨S_, .f32⟩
  | 60 => ⟨S128x1024, .f32⟩
  | 61 => ⟨S128x1024x1, .f32⟩
  | 62 => ⟨S128x1024x10, .f32⟩
  | 63 => ⟨S128x1024x10, .f32⟩
  | 64 => ⟨S128x1024x768, .f32⟩
  | 65 => ⟨S128x1024x1, .f32⟩
  | 66 => ⟨S128x1024x768, .f32⟩
  | 67 => ⟨S128x1024x768, .f32⟩
  | 68 => ⟨S128x10x1024, .f32⟩
  | 69 => ⟨S128x10x1024, .f32⟩
  | 70 => ⟨S_, .f32⟩
  | 71 => ⟨S128x10, .f32⟩
  | 72 => ⟨S_, .f32⟩
  | 73 => ⟨S128x10, .f32⟩
  | 74 => ⟨S128x10, .f32⟩
  | 75 => ⟨S128x10x1, .f32⟩
  | 76 => ⟨S128x10x1024, .f32⟩
  | 77 => ⟨S128x10x1024, .f32⟩
  | 78 => ⟨S128x10x1024, .f32⟩
  | 79 => ⟨S_, .f32⟩
  | 80 => ⟨S128x10, .f32⟩
  | 81 => ⟨S128x10x1, .f32⟩
  | 82 => ⟨S128x10x1024, .f32⟩
  | 83 => ⟨S128x10x1024, .f32⟩
  | 84 => ⟨S128x10x768, .f32⟩
  | 85 => ⟨S128x10x1, .f32⟩
  | 86 => ⟨S128x10x768, .f32⟩
  | 87 => ⟨S128x10x768, .f32⟩
  | 88 => ⟨S128x10x1024, .f32⟩
  | 89 => ⟨S128x10x1024, .f32⟩
  | 90 => ⟨S_, .f32⟩
  | 91 => ⟨S128x10, .f32⟩
  | 92 => ⟨S_, .f32⟩
  | 93 => ⟨S128x10, .f32⟩
  | 94 => ⟨S128x10, .f32⟩
  | 95 => ⟨S128x10, .f32⟩
  | 96 => ⟨S128x10, .f32⟩
  | 97 => ⟨S_, .f32⟩
  | 98 => ⟨S128x10, .f32⟩
  | 99 => ⟨S128x10, .f32⟩
  | 100 => ⟨S_, .f32⟩
  | 101 => ⟨S128x10, .f32⟩
  | 102 => ⟨S128x10, .f32⟩
  | 103 => ⟨S128x10x1, .f32⟩
  | 104 => ⟨S128x1024x10, .f32⟩
  | 105 => ⟨S128x1024x10, .f32⟩
  | 106 => ⟨S128x1024x10, .f32⟩
  | 107 => ⟨S_, .f32⟩
  | 108 => ⟨S128x1024, .f32⟩
  | 109 => ⟨S_, .f32⟩
  | 110 => ⟨S128x1024, .f32⟩
  | 111 => ⟨S128x1024, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S_, .f32⟩
  | 118 => ⟨S128x1024, .f32⟩
  | 119 => ⟨S128x1024, .f32⟩
  | 120 => ⟨S128x1024x1, .f32⟩
  | 121 => ⟨S128x10x768, .f32⟩
  | 122 => ⟨S128x10x768, .f32⟩
  | 123 => ⟨S128x1024x768, .f32⟩
  | 124 => ⟨S128x1024x768, .f32⟩
  | 125 => ⟨S_, .f32⟩
  | 126 => ⟨S128x768, .f32⟩
  | 127 => ⟨S_, .f32⟩
  | _ => ⟨S128x1024x768, .f32⟩

abbrev hbmTy0_1 (i : Nat) : BufTy := match i % 128 with
  | 0 => ⟨S128x768, .f32⟩
  | 1 => ⟨S128x1536, .f32⟩
  | 2 => ⟨S128x10x1024, .f32⟩
  | 3 => ⟨S128x1x1024, .f32⟩
  | 4 => ⟨S128x1x10, .f32⟩
  | _ => ⟨S128x1024x768, .f32⟩

abbrev hbmTy (i : Nat) : BufTy := match i / 128 with
  | 0 => hbmTy0_0 i
  | 1 => hbmTy0_1 i
  | _ => ⟨S128x1024x768, .f32⟩

abbrev bufTy : (tb : Table) → Fin (tcTables nBuf tb) → BufTy
  | .hbm, ⟨i, _⟩ => hbmTy i
  | _, _ => ⟨S128x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_cst_16 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_17 : Ref sig .tc := ⟨.hbm, 107, rfl⟩
abbrev main_v85 : Ref sig .tc := ⟨.hbm, 108, rfl⟩
abbrev main_cst_18 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_19 : Ref sig .tc := ⟨.hbm, 114, rfl⟩
abbrev main_v90 : Ref sig .tc := ⟨.hbm, 115, rfl⟩
abbrev main_v91 : Ref sig .tc := ⟨.hbm, 116, rfl⟩
abbrev main_cst_20 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_21 : Ref sig .tc := ⟨.hbm, 125, rfl⟩
abbrev main_v99 : Ref sig .tc := ⟨.hbm, 126, rfl⟩
abbrev main_cst_22 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S128x1024_S128x1x1024_0_2 : S128x1024.BroadcastsInDim S128x1x1024 (![0, 2] : Fin 2 → Fin S128x1x1024.rank)
  bcast_S_S128x10 : S_.BroadcastsInDim S128x10 (![] : Fin 0 → Fin S128x10.rank)
  bcast_S128x10_S128x1x10_0_2 : S128x10.BroadcastsInDim S128x1x10 (![0, 2] : Fin 2 → Fin S128x1x10.rank)
  bcast_S128x1024_S128x1024x1_0_1 : S128x1024.BroadcastsInDim S128x1024x1 (![0, 1] : Fin 2 → Fin S128x1024x1.rank)
  bcast_S128x1024x1_S128x1024x768_0_1_2 : S128x1024x1.BroadcastsInDim S128x1024x768 (![0, 1, 2] : Fin 3 → Fin S128x1024x768.rank)
  bcast_S128x10_S128x10x1_0_1 : S128x10.BroadcastsInDim S128x10x1 (![0, 1] : Fin 2 → Fin S128x10x1.rank)
  bcast_S128x10x1_S128x10x768_0_1_2 : S128x10x1.BroadcastsInDim S128x10x768 (![0, 1, 2] : Fin 3 → Fin S128x10x768.rank)
  reducesTo_S128x1024x768_S128x1024_d2 : S128x1024x768.ReducesTo [2] S128x1024
  h_S_ : 0 < S_.numel
  reducesTo_S128x10x768_S128x10_d2 : S128x10x768.ReducesTo [2] S128x10
  bcast_S128x10x1_S128x10x1024_0_1_2 : S128x10x1.BroadcastsInDim S128x10x1024 (![0, 1, 2] : Fin 3 → Fin S128x10x1024.rank)
  bcast_S128x1x1024_S128x10x1024_0_1_2 : S128x1x1024.BroadcastsInDim S128x10x1024 (![0, 1, 2] : Fin 3 → Fin S128x10x1024.rank)
  transposes_S128x10x1024_S128x1024x10_0_2_1 : S128x10x1024.Transposes [0, 2, 1] S128x1024x10
  bcast_S128x1x10_S128x1024x10_0_1_2 : S128x1x10.BroadcastsInDim S128x1024x10 (![0, 1, 2] : Fin 3 → Fin S128x1024x10.rank)
  reducesTo_S128x1024x10_S128x1024_d2 : S128x1024x10.ReducesTo [2] S128x1024
  bcast_S128x1024x1_S128x1024x10_0_1_2 : S128x1024x1.BroadcastsInDim S128x1024x10 (![0, 1, 2] : Fin 3 → Fin S128x1024x10.rank)
  reducesTo_S128x10x1024_S128x10_d2 : S128x10x1024.ReducesTo [2] S128x10
  reducesTo_S128x10x768_S128x768_d1 : S128x10x768.ReducesTo [1] S128x768
  reducesTo_S128x1024x768_S128x768_d1 : S128x1024x768.ReducesTo [1] S128x768
  concatenates_S128x768_S128x768_S128x1536_d1 : Shape.Concatenates [S128x768, S128x768] S128x1536 1
  transposes_S128x1024x10_S128x10x1024_0_2_1 : S128x1024x10.Transposes [0, 2, 1] S128x10x1024
  transposes_S128x1024x1_S128x1x1024_0_2_1 : S128x1024x1.Transposes [0, 2, 1] S128x1x1024
  transposes_S128x10x1_S128x1x10_0_2_1 : S128x10x1.Transposes [0, 2, 1] S128x1x10
  dot_S128x10x768_S128x1024x768_S128x10x1024_2_2_1_1_0_0_wf : DotDims.WF S128x10x768 S128x1024x768 S128x10x1024 [2] [2] [1] [1] [0] [0]
  dot_S128x1024x10_S128x10x768_S128x1024x768_2_1_1_2_0_0_wf : DotDims.WF S128x1024x10 S128x10x768 S128x1024x768 [2] [1] [1] [2] [0] [0]
  dot_S128x10x1024_S128x1024x768_S128x10x768_2_1_1_2_0_0_wf : DotDims.WF S128x10x1024 S128x1024x768 S128x10x768 [2] [1] [1] [2] [0] [0]

variable [Facts₀]

def dot_S128x10x768_S128x1024x768_S128x10x1024_2_2_1_1_0_0 : DotDims S128x10x768 S128x1024x768 S128x10x1024 where
  lhsContracting := [2]
  rhsContracting := [2]
  lhsNonContracting := [1]
  rhsNonContracting := [1]
  lhsBatch := [0]
  rhsBatch := [0]
  wf := dot_S128x10x768_S128x1024x768_S128x10x1024_2_2_1_1_0_0_wf
def dot_S128x1024x10_S128x10x768_S128x1024x768_2_1_1_2_0_0 : DotDims S128x1024x10 S128x10x768 S128x1024x768 where
  lhsContracting := [2]
  rhsContracting := [1]
  lhsNonContracting := [1]
  rhsNonContracting := [2]
  lhsBatch := [0]
  rhsBatch := [0]
  wf := dot_S128x1024x10_S128x10x768_S128x1024x768_2_1_1_2_0_0_wf
def dot_S128x10x1024_S128x1024x768_S128x10x768_2_1_1_2_0_0 : DotDims S128x10x1024 S128x1024x768 S128x10x768 where
  lhsContracting := [2]
  rhsContracting := [1]
  lhsNonContracting := [1]
  rhsNonContracting := [2]
  lhsBatch := [0]
  rhsBatch := [0]
  wf := dot_S128x10x1024_S128x1024x768_S128x10x768_2_1_1_2_0_0_wf

class Facts : Prop extends Facts₀ where

variable [Facts]
-- ==== Proof.Spec.lean ====
/-
  Key attention of one batch element, as a function of its four rows of data.

  For one batch element: A (answer tokens × features), K (key tokens × features), and the two 0/1 padding masks ma, mk.
  Masked rows an = A·ma, ky = K·mk; scores Z(k,a) = Σ_e ky(k,e)·an(a,e); additive biases |m − 1|·(−10⁴) for padded
  positions; row norms sqrt(max(Σ_e x², ε)); cosine scores Z / (normK·normA); the two softmaxes of the biased scores (over the
  key tokens for each answer token, over the answer tokens for each key token), each computed as programs do — subtract the
  row's maximum (joined once more with −∞), exponentiate, divide by the row's sum; the attended rows Σ softmax·row, masked
  again; the gates, a sigmoid of five times the best biased cosine score; the gated rows, pooled by a maximum over the
  tokens; and the two pooled vectors laid end to end.

  Every maximum over a finite index set is a fold of max from −∞ over the set (no order), every sum a finite sum, and the
  float literals stay as their words: the same word is read on both sides and never evaluated.  The extents are variables:
  nothing here computes with 1024, 10 or 768.
-/
import Idealize.ShloMosaic.PureOps.Ideal

noncomputable section

namespace Cert.Attn

open Idealize.ShloMosaic

/-- The literals of both programs, as the words they are printed with: 1, −10⁴, 10⁻⁷ (rounded to f32), −∞, 5. -/
abbrev cOne : EReal := Ideal.ofBits .f32 0x3F800000#32
abbrev cNegBig : EReal := Ideal.ofBits .f32 0xC61C4000#32
abbrev cEps : EReal := Ideal.ofBits .f32 0x33D6BF95#32
abbrev cNegInf : EReal := Ideal.ofBits .f32 0xFF800000#32
abbrev cFive : EReal := Ideal.ofBits .f32 0x40A00000#32

/-- The maximum of a family over a finite index set, from −∞. -/
def foldMax {n : ℕ} (r : Fin n → EReal) : EReal := (Finset.univ : Finset (Fin n)).fold max cNegInf r

/-- The row maximum a softmax subtracts: the fold, joined once more with −∞ (as both programs print it). -/
def rowMax {n : ℕ} (r : Fin n → EReal) : EReal := max cNegInf (foldMax r)

/-- A row's softmax at lane j: exp (r j − max) over the sum of the exponentials. -/
def rowSoft {n : ℕ} (r : Fin n → EReal) (j : Fin n) : EReal :=
  Ideal.div (Ideal.exp (r j - rowMax r)) (∑ k : Fin n, Ideal.exp (r k - rowMax r))

/-- The additive bias of a mask value: |m − 1| · (−10⁴). -/
def bias (m : EReal) : EReal := max (m - cOne) (-(m - cOne)) * cNegBig

/-- The norm of a row: sqrt (max (Σ_e x_e², ε)). -/
def norm {n : ℕ} (x : Fin n → EReal) : EReal := Ideal.sqrt (max (∑ e : Fin n, x e * x e) cEps)

/-- The gate of a row of biased cosine scores: sigmoid (5 · max). -/
def gate {n : ℕ} (r : Fin n → EReal) : EReal := Ideal.logistic (foldMax r * cFive)

variable {NA NK E : ℕ}
variable (A : Fin NA → Fin E → EReal) (K : Fin NK → Fin E → EReal) (ma : Fin NA → EReal) (mk : Fin NK → EReal)

/-- The masked answer and key rows. -/
def an (a : Fin NA) (e : Fin E) : EReal := A a e * ma a
def ky (k : Fin NK) (e : Fin E) : EReal := K k e * mk k

/-- The raw scores: key token k against answer token a. -/
def Z (k : Fin NK) (a : Fin NA) : EReal := ∑ e : Fin E, ky K mk k e * an A ma a e

/-- The cosine scores. -/
def Zcos (k : Fin NK) (a : Fin NA) : EReal :=
  Ideal.div (Z A K ma mk k a) (norm (ky K mk k) * norm (an A ma a))

/-- Softmax over the key tokens, for answer token a. -/
def Pk (a : Fin NA) (k : Fin NK) : EReal := rowSoft (fun k' => Z A K ma mk k' a + bias (mk k')) k

/-- Softmax over the answer tokens, for key token k. -/
def Pa (k : Fin NK) (a : Fin NA) : EReal := rowSoft (fun a' => Z A K ma mk k a' + bias (ma a')) a

/-- The gates of the key tokens and of the answer tokens. -/
def betaK (k : Fin NK) : EReal := gate (fun a => Zcos A K ma mk k a + bias (ma a))
def betaA (a : Fin NA) : EReal := gate (fun k => Zcos A K ma mk k a + bias (mk k))

/-- The attended rows, masked and gated. -/
def U (k : Fin NK) (e : Fin E) : EReal :=
  ((∑ a : Fin NA, Pa A K ma mk k a * an A ma a e) * mk k) * betaK A K ma mk k
def V (a : Fin NA) (e : Fin E) : EReal :=
  ((∑ k : Fin NK, Pk A K ma mk a k * ky K mk k e) * ma a) * betaA A K ma mk a

/-- The pooled vectors. -/
def uMax (e : Fin E) : EReal := foldMax (fun k => U A K ma mk k e)
def vMax (e : Fin E) : EReal := foldMax (fun a => V A K ma mk a e)

/-- The two pooled vectors end to end, read at position j (positions past 2E do not occur). -/
def f (j : ℕ) : EReal :=
  if h : j < E then uMax A K ma mk ⟨j, h⟩
  else if h2 : j - E < E then vMax A K ma mk ⟨j - E, h2⟩ else 0

end Cert.Attn

end
-- ==== Proof.Rows.lean ====
/-
  The data of one batch element, read off a block or off a whole array.

  A grid point works on one batch element: its block of the answers is a 1 × 1024 × 768 array, of the keys 1 × 10 × 768, of the
  masks 1 × 1 × 1024 and 1 × 1 × 10.  The same batch element b of the whole arrays is row b of a 128 × … array.  Both are named
  here as plain functions of token and feature coordinates, the form the specification takes its arguments in.
-/
import proofs.«136482_j5557687681282_2_alg».proof.Proof.Spec
import Idealize.ShloMosaic.Lib.ValueIdx

noncomputable section

namespace Cert.Rows

open Idealize.ShloMosaic Idealize.ShloMosaic.ValueIdx

/-- The rows of a block (its leading axis has extent one). -/
abbrev rA (x : (⟨3, ![1, 1024, 768]⟩ : Shape).Idx → EReal) : Fin 1024 → Fin 768 → EReal := fun a e => x (ix3 (0 : Fin 1) a e)
abbrev rK (x : (⟨3, ![1, 10, 768]⟩ : Shape).Idx → EReal) : Fin 10 → Fin 768 → EReal := fun k e => x (ix3 (0 : Fin 1) k e)
abbrev rMa (x : (⟨3, ![1, 1, 1024]⟩ : Shape).Idx → EReal) : Fin 1024 → EReal := fun a => x (ix3 (0 : Fin 1) (0 : Fin 1) a)
abbrev rMk (x : (⟨3, ![1, 1, 10]⟩ : Shape).Idx → EReal) : Fin 10 → EReal := fun k => x (ix3 (0 : Fin 1) (0 : Fin 1) k)

/-- The rows of batch element b of the whole arrays. -/
abbrev bA (x : (⟨3, ![128, 1024, 768]⟩ : Shape).Idx → EReal) (b : Fin 128) : Fin 1024 → Fin 768 → EReal := fun a e => x (ix3 b a e)
abbrev bK (x : (⟨3, ![128, 10, 768]⟩ : Shape).Idx → EReal) (b : Fin 128) : Fin 10 → Fin 768 → EReal := fun k e => x (ix3 b k e)
abbrev bMa (x : (⟨2, ![128, 1024]⟩ : Shape).Idx → EReal) (b : Fin 128) : Fin 1024 → EReal := fun a => x (ix2 b a)
abbrev bMk (x : (⟨2, ![128, 10]⟩ : Shape).Idx → EReal) (b : Fin 128) : Fin 10 → EReal := fun k => x (ix2 b k)

end Cert.Rows

end
-- ==== Proof.Whole.lean ====
/-
  The six results as whole arrays.

  Each result array, at an index whose first coordinate is the batch element b, is the specification's function of
  batch element b's rows of the four argument arrays: the pooled vector f at (b, j); the scores Z, the softmax over the
  answer tokens, and the transposed softmax over the key tokens at (b, k, a); the answer tokens' gates at (b, 0, a) and
  the key tokens' gates at (b, 0, k).  The kernel writes the pooled vector as a 128 × 1 × 1536 array which is then
  re-laid as 128 × 1536: both layouts are named.
-/
import proofs.«136482_j5557687681282_2_alg».proof.Proof.Rows
import Idealize.ShloMosaic.Lib.Pipeline.Value

noncomputable section

namespace Cert.Whole

open Idealize.ShloMosaic Idealize.ShloMosaic.ValueIdx Cert.Rows

variable (x0 : (⟨3, ![128, 1024, 768]⟩ : Shape).Idx → EReal) (x1 : (⟨2, ![128, 1024]⟩ : Shape).Idx → EReal)
  (x2 : (⟨3, ![128, 10, 768]⟩ : Shape).Idx → EReal) (x3 : (⟨2, ![128, 10]⟩ : Shape).Idx → EReal)

/-- The pooled vectors, 128 × 1536. -/
def Gf : (⟨2, ![128, 1536]⟩ : Shape).Idx → EReal := fun i =>
  Cert.Attn.f (bA x0 ⟨(i 0).val, (i 0).isLt⟩) (bK x2 ⟨(i 0).val, (i 0).isLt⟩) (bMa x1 ⟨(i 0).val, (i 0).isLt⟩)
    (bMk x3 ⟨(i 0).val, (i 0).isLt⟩) (i 1).val

/-- The pooled vectors as the kernel writes them, 128 × 1 × 1536. -/
def Gf3 : (⟨3, ![128, 1, 1536]⟩ : Shape).Idx → EReal := fun i =>
  Cert.Attn.f (bA x0 ⟨(i 0).val, (i 0).isLt⟩) (bK x2 ⟨(i 0).val, (i 0).isLt⟩) (bMa x1 ⟨(i 0).val, (i 0).isLt⟩)
    (bMk x3 ⟨(i 0).val, (i 0).isLt⟩) (i 2).val

/-- The raw scores, 128 × 10 × 1024. -/
def GZ : (⟨3, ![128, 10, 1024]⟩ : Shape).Idx → EReal := fun i =>
  Cert.Attn.Z (bA x0 ⟨(i 0).val, (i 0).isLt⟩) (bK x2 ⟨(i 0).val, (i 0).isLt⟩) (bMa x1 ⟨(i 0).val, (i 0).isLt⟩)
    (bMk x3 ⟨(i 0).val, (i 0).isLt⟩) ⟨(i 1).val, (i 1).isLt⟩ ⟨(i 2).val, (i 2).isLt⟩

/-- The softmax over the answer tokens, 128 × 10 × 1024. -/
def GPa : (⟨3, ![128, 10, 1024]⟩ : Shape).Idx → EReal := fun i =>
  Cert.Attn.Pa (bA x0 ⟨(i 0).val, (i 0).isLt⟩) (bK x2 ⟨(i 0).val, (i 0).isLt⟩) (bMa x1 ⟨(i 0).val, (i 0).isLt⟩)
    (bMk x3 ⟨(i 0).val, (i 0).isLt⟩) ⟨(i 1).val, (i 1).isLt⟩ ⟨(i 2).val, (i 2).isLt⟩

/-- The softmax over the key tokens, transposed: 128 × 10 × 1024. -/
def GPkT : (⟨3, ![128, 10, 1024]⟩ : Shape).Idx → EReal := fun i =>
  Cert.Attn.Pk (bA x0 ⟨(i 0).val, (i 0).isLt⟩) (bK x2 ⟨(i 0).val, (i 0).isLt⟩) (bMa x1 ⟨(i 0).val, (i 0).isLt⟩)
    (bMk x3 ⟨(i 0).val, (i 0).isLt⟩) ⟨(i 2).val, (i 2).isLt⟩ ⟨(i 1).val, (i 1).isLt⟩

/-- The answer tokens' gates, 128 × 1 × 1024. -/
def GbA : (⟨3, ![128, 1, 1024]⟩ : Shape).Idx → EReal := fun i =>
  Cert.Attn.betaA (bA x0 ⟨(i 0).val, (i 0).isLt⟩) (bK x2 ⟨(i 0).val, (i 0).isLt⟩) (bMa x1 ⟨(i 0).val, (i 0).isLt⟩)
    (bMk x3 ⟨(i 0).val, (i 0).isLt⟩) ⟨(i 2).val, (i 2).isLt⟩

/-- The key tokens' gates, 128 × 1 × 10. -/
def GbK : (⟨3, ![128, 1, 10]⟩ : Shape).Idx → EReal := fun i =>
  Cert.Attn.betaK (bA x0 ⟨(i 0).val, (i 0).isLt⟩) (bK x2 ⟨(i 0).val, (i 0).isLt⟩) (bMa x1 ⟨(i 0).val, (i 0).isLt⟩)
    (bMk x3 ⟨(i 0).val, (i 0).isLt⟩) ⟨(i 2).val, (i 2).isLt⟩

/-! Each at an index given by its coordinates. -/

theorem Gf_ix (b : Fin 128) (j : Fin 1536) :
    Gf x0 x1 x2 x3 (ix2 b j) = Cert.Attn.f (bA x0 b) (bK x2 b) (bMa x1 b) (bMk x3 b) j.val := rfl
theorem Gf3_ix (b : Fin 128) (u : Fin 1) (j : Fin 1536) :
    Gf3 x0 x1 x2 x3 (ix3 b u j) = Cert.Attn.f (bA x0 b) (bK x2 b) (bMa x1 b) (bMk x3 b) j.val := rfl
theorem GZ_ix (b : Fin 128) (k : Fin 10) (a : Fin 1024) :
    GZ x0 x1 x2 x3 (ix3 b k a) = Cert.Attn.Z (bA x0 b) (bK x2 b) (bMa x1 b) (bMk x3 b) k a := rfl
theorem GPa_ix (b : Fin 128) (k : Fin 10) (a : Fin 1024) :
    GPa x0 x1 x2 x3 (ix3 b k a) = Cert.Attn.Pa (bA x0 b) (bK x2 b) (bMa x1 b) (bMk x3 b) k a := rfl
theorem GPkT_ix (b : Fin 128) (k : Fin 10) (a : Fin 1024) :
    GPkT x0 x1 x2 x3 (ix3 b k a) = Cert.Attn.Pk (bA x0 b) (bK x2 b) (bMa x1 b) (bMk x3 b) a k := rfl
theorem GbA_ix (b : Fin 128) (u : Fin 1) (a : Fin 1024) :
    GbA x0 x1 x2 x3 (ix3 b u a) = Cert.Attn.betaA (bA x0 b) (bK x2 b) (bMa x1 b) (bMk x3 b) a := rfl
theorem GbK_ix (b : Fin 128) (u : Fin 1) (k : Fin 10) :
    GbK x0 x1 x2 x3 (ix3 b u k) = Cert.Attn.betaK (bA x0 b) (bK x2 b) (bMa x1 b) (bMk x3 b) k := rfl

/-- The 128 × 1 × 1536 layout re-laid as 128 × 1536 (the unit axis dropped: the row-major position is kept). -/
theorem reshape_Gf3 (h : (⟨3, ![128, 1, 1536]⟩ : Shape).ShapeCasts ⟨2, ![128, 1536]⟩) :
    shapeCast ⟨2, ![128, 1536]⟩ (Gf3 x0 x1 x2 x3) h = Gf x0 x1 x2 x3 := by
  funext i
  obtain ⟨b, j, rfl⟩ : ∃ (b : Fin 128) (j : Fin 1536), i = ix2 b j := ⟨i 0, i 1, eq_ix2 i⟩
  refine (shapeCast_apply (Gf3 x0 x1 x2 x3) h (ix2 b j) (ix3 b (0 : Fin 1) j) ?_).trans ?_
  · rw [Shape.rowMajor_val_three, Shape.rowMajor_val_two]
    show (b.val * 1 + 0) * 1536 + j.val = b.val * 1536 + j.val
    omega
  · rfl

end Cert.Whole

end
-- ==== Proof.KernelArr.lean ====
/-
  From blocks to arrays.

  The grid has one point per batch element; point t stages block t (extent one along the batch axis) of every array and
  writes back block t of every result.  So the input blocks at point t are batch element t's rows of the arrays the
  region finds, each result block is a function of those rows, and the 128 result blocks tile each result array.
-/
import proofs.«136482_j5557687681282_2_alg».proof.Proof.Whole
import proofs.«136482_j5557687681282_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.Rows Cert.Whole

variable (m : (ℓ : Loc nD τ sig) → Buf (Elt Ideal) ℓ) (ρ : Dev nD → PrngReg)

/-- A grid point is a batch element. -/
theorem lt128 (t : Fin cfg0.N) : t.val < 128 := lt_of_lt_of_eq t.isLt N_0

/-- Every window's block index at point t is (t, 0, 0): decided over the grid. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-! ## The input blocks at point t are batch element t's rows -/

theorem iblk0_apply (c : Dev nD) (t : Fin cfg0.N) (a : Fin 1024) (e : Fin 768) :
    (iblk m c 0 t : Vec Ideal S1x1024x768 .f32) (ix3 (0 : Fin 1) a e)
      = (V m c main_arg0 : S128x1024x768.Idx → EReal) (ix3 ⟨t.val, lt128 t⟩ a e) := by
  obtain ⟨⟨e0, e1, e2⟩, -⟩ := idx_facts t
  unfold iblk
  rw [View.read_apply]
  show V m c main_arg0 _ = V m c main_arg0 _
  congr 1
  funext d
  apply Fin.ext
  match d with
  | ⟨0, _⟩ => show win0_0.index t 0 * 1 + 1 * 0 = t.val; rw [e0]; omega
  | ⟨1, _⟩ => show win0_0.index t 1 * 1024 + 1 * a.val = a.val; rw [e1]; omega
  | ⟨2, _⟩ => show win0_0.index t 2 * 768 + 1 * e.val = e.val; rw [e2]; omega

theorem iblk1_apply (c : Dev nD) (t : Fin cfg0.N) (k : Fin 10) (e : Fin 768) :
    (iblk m c 1 t : Vec Ideal S1x10x768 .f32) (ix3 (0 : Fin 1) k e)
      = (V m c main_arg2 : S128x10x768.Idx → EReal) (ix3 ⟨t.val, lt128 t⟩ k e) := by
  obtain ⟨-, ⟨e0, e1, e2⟩, -⟩ := idx_facts t
  unfold iblk
  rw [View.read_apply]
  show V m c main_arg2 _ = V m c main_arg2 _
  congr 1
  funext d
  apply Fin.ext
  match d with
  | ⟨0, _⟩ => show win0_1.index t 0 * 1 + 1 * 0 = t.val; rw [e0]; omega
  | ⟨1, _⟩ => show win0_1.index t 1 * 10 + 1 * k.val = k.val; rw [e1]; omega
  | ⟨2, _⟩ => show win0_1.index t 2 * 768 + 1 * e.val = e.val; rw [e2]; omega

theorem iblk2_apply (c : Dev nD) (t : Fin cfg0.N) (a : Fin 1024) :
    (iblk m c 2 t : Vec Ideal S1x1x1024 .f32) (ix3 (0 : Fin 1) (0 : Fin 1) a)
      = (V m c main_v0 : S128x1x1024.Idx → EReal) (ix3 ⟨t.val, lt128 t⟩ (0 : Fin 1) a) := by
  obtain ⟨-, -, ⟨e0, e1, e2⟩, -⟩ := idx_facts t
  unfold iblk
  rw [View.read_apply]
  show V m c main_v0 _ = V m c main_v0 _
  congr 1
  funext d
  apply Fin.ext
  match d with
  | ⟨0, _⟩ => show win0_2.index t 0 * 1 + 1 * 0 = t.val; rw [e0]; omega
  | ⟨1, _⟩ => show win0_2.index t 1 * 1 + 1 * 0 = 0; rw [e1]
  | ⟨2, _⟩ => show win0_2.index t 2 * 1024 + 1 * a.val = a.val; rw [e2]; omega

theorem iblk3_apply (c : Dev nD) (t : Fin cfg0.N) (k : Fin 10) :
    (iblk m c 3 t : Vec Ideal S1x1x10 .f32) (ix3 (0 : Fin 1) (0 : Fin 1) k)
      = (V m c main_v1 : S128x1x10.Idx → EReal) (ix3 ⟨t.val, lt128 t⟩ (0 : Fin 1) k) := by
  obtain ⟨-, -, -, ⟨e0, e1, e2⟩, -⟩ := idx_facts t
  unfold iblk
  rw [View.read_apply]
  show V m c main_v1 _ = V m c main_v1 _
  congr 1
  funext d
  apply Fin.ext
  match d with
  | ⟨0, _⟩ => show win0_3.index t 0 * 1 + 1 * 0 = t.val; rw [e0]; omega
  | ⟨1, _⟩ => show win0_3.index t 1 * 1 + 1 * 0 = 0; rw [e1]
  | ⟨2, _⟩ => show win0_3.index t 2 * 10 + 1 * k.val = k.val; rw [e2]; omega

/-! ## The two mask arrays the region finds: the masks with a unit axis inserted, by the host, before the region -/

theorem V_v0 (c : Dev nD) : (V m c main_v0 : S128x1x1024.Idx → EReal)
    = broadcastInDim S128x1x1024 ![0, 2] bcast_S128x1024_S128x1x1024_0_2 (m ((c : Thread nD τ).loc main_arg1)) := by
  show StableHlo.after hostOps0 (fun b => m (c, b)) (Proc.devRef .tc main_v0) = _
  after_results

theorem V_v1 (c : Dev nD) : (V m c main_v1 : S128x1x10.Idx → EReal)
    = broadcastInDim S128x1x10 ![0, 2] bcast_S128x10_S128x1x10_0_2 (m ((c : Thread nD τ).loc main_arg3)) := by
  show StableHlo.after hostOps0 (fun b => m (c, b)) (Proc.devRef .tc main_v1) = _
  after_results

theorem V_v0_apply (c : Dev nD) (b : Fin 128) (a : Fin 1024) :
    (V m c main_v0 : S128x1x1024.Idx → EReal) (ix3 b (0 : Fin 1) a)
      = (m ((c : Thread nD τ).loc main_arg1) : S128x1024.Idx → EReal) (ix2 b a) :=
  (congrFun (V_v0 m c) _).trans (broadcastInDim_apply _ bcast_S128x1024_S128x1x1024_0_2 _ (ix3 b (0 : Fin 1) a) (ix2 b a) (fun d => match d with
    | ⟨0, _⟩ => by show b.val = if (128 : Nat) = 1 then 0 else b.val; rw [if_neg (by decide)]
    | ⟨1, _⟩ => by show a.val = if (1024 : Nat) = 1 then 0 else a.val; rw [if_neg (by decide)]))

theorem V_v1_apply (c : Dev nD) (b : Fin 128) (k : Fin 10) :
    (V m c main_v1 : S128x1x10.Idx → EReal) (ix3 b (0 : Fin 1) k)
      = (m ((c : Thread nD τ).loc main_arg3) : S128x10.Idx → EReal) (ix2 b k) :=
  (congrFun (V_v1 m c) _).trans (broadcastInDim_apply _ bcast_S128x10_S128x1x10_0_2 _ (ix3 b (0 : Fin 1) k) (ix2 b k) (fun d => match d with
    | ⟨0, _⟩ => by show b.val = if (128 : Nat) = 1 then 0 else b.val; rw [if_neg (by decide)]
    | ⟨1, _⟩ => by show k.val = if (10 : Nat) = 1 then 0 else k.val; rw [if_neg (by decide)]))

/-! ## The rows of the blocks at point t are the rows of batch element t of the argument arrays -/

abbrev A0 (c : Dev nD) : S128x1024x768.Idx → EReal := m ((c : Thread nD τ).loc main_arg0)
abbrev A1 (c : Dev nD) : S128x1024.Idx → EReal := m ((c : Thread nD τ).loc main_arg1)
abbrev A2 (c : Dev nD) : S128x10x768.Idx → EReal := m ((c : Thread nD τ).loc main_arg2)
abbrev A3 (c : Dev nD) : S128x10.Idx → EReal := m ((c : Thread nD τ).loc main_arg3)

theorem rowsA (c : Dev nD) (t : Fin cfg0.N) : rA (iblk m c 0 t) = bA (A0 m c) ⟨t.val, lt128 t⟩ :=
  funext fun a => funext fun e => (iblk0_apply m c t a e).trans (congrFun (V_main_arg0 m c) _)
theorem rowsK (c : Dev nD) (t : Fin cfg0.N) : rK (iblk m c 1 t) = bK (A2 m c) ⟨t.val, lt128 t⟩ :=
  funext fun k => funext fun e => (iblk1_apply m c t k e).trans (congrFun (V_main_arg2 m c) _)
theorem rowsMa (c : Dev nD) (t : Fin cfg0.N) : rMa (iblk m c 2 t) = bMa (A1 m c) ⟨t.val, lt128 t⟩ :=
  funext fun a => (iblk2_apply m c t a).trans (V_v0_apply m c _ a)
theorem rowsMk (c : Dev nD) (t : Fin cfg0.N) : rMk (iblk m c 3 t) = bMk (A3 m c) ⟨t.val, lt128 t⟩ :=
  funext fun k => (iblk3_apply m c t k).trans (V_v1_apply m c _ k)

/-! ## The scores: window 5 -/

/-- An index of the array is in point t's block iff each coordinate is in the block's range on its axis. -/
theorem mem_blk5 (t : Fin cfg0.N) (i : S128x10x1024.Idx) :
    i ∈ ((cfg0.win 5).blk t).view.set ↔ ∀ a : Fin 3, win0_5.index t a * S1x10x1024.size a ≤ (i a).val
      ∧ (i a).val < win0_5.index t a * S1x10x1024.size a + S1x10x1024.size a := by
  show i ∈ ((View.whole main_v2_1).slice (win0_5.rect t)).set ↔ _
  rw [View.set_slice_whole, Rect.mem_set_unit]
  exact Iff.rfl

/-- Every index lies in the block of its batch element. -/
theorem cover5 (i : S128x10x1024.Idx) :
    ∃ t : Fin cfg0.N, (cfg0.win 5).flush t = true ∧ i ∈ ((cfg0.win 5).blk t).view.set := by
  have hN : cfg0.N = 128 := N_0
  have h0 : (i 0).val < 128 := (i 0).isLt
  have h1 : (i 1).val < 10 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, ⟨e0, e1, e2⟩, -⟩ := idx_facts t
  refine ⟨t, flush0_5 t, ?_⟩
  rw [mem_blk5]
  intro a
  match a with
  | ⟨0, _⟩ => show win0_5.index t 0 * 1 ≤ (i 0).val ∧ (i 0).val < win0_5.index t 0 * 1 + 1; rw [e0]; omega
  | ⟨1, _⟩ => show win0_5.index t 1 * 10 ≤ (i 1).val ∧ (i 1).val < win0_5.index t 1 * 10 + 10; rw [e1]; omega
  | ⟨2, _⟩ => show win0_5.index t 2 * 1024 ≤ (i 2).val ∧ (i 2).val < win0_5.index t 2 * 1024 + 1024; rw [e2]; omega

section Scores

variable (hout5 : ∀ (x0 : Vec Ideal S1x1024x768 .f32) (x1 : Vec Ideal S1x10x768 .f32) (x2 : Vec Ideal S1x1x1024 .f32)
    (x3 : Vec Ideal S1x1x10 .f32) (k : Fin 10) (a : Fin 1024),
    out0_5 (F := Ideal) x0 x1 x2 x3 (ix3 (0 : Fin 1) k a) = Cert.Attn.Z (rA x0) (rK x1) (rMa x2) (rMk x3) k a)
include hout5

/-- What point t writes back is block t of the whole scores array. -/
theorem flushed5_eq (c : Dev nD) (t : Fin cfg0.N) :
    (dats m 0 c).flushed 5 t = ((cfg0.win 5).blk t).view.read (Elt Ideal) (GZ (A0 m c) (A1 m c) (A2 m c) (A3 m c)) := by
  obtain ⟨-, -, -, -, -, ⟨e0, e1, e2⟩, -⟩ := idx_facts t
  show (cfg0.win 5).cut (grid0.coords t) ((dats m 0 c).after 5 t) = _
  rw [after0_5]
  funext y
  obtain ⟨u, k, a, rfl⟩ : ∃ (u : Fin 1) (k : Fin 10) (a : Fin 1024), y = ix3 u k a :=
    ⟨y 0, y 1, y 2, eq_ix3 (n0 := 1) (n1 := 10) (n2 := 1024) y⟩
  obtain rfl : u = 0 := Subsingleton.elim _ _
  refine (hout5 (iblk m c 0 t) (iblk m c 1 t) (iblk m c 2 t) (iblk m c 3 t) k a).trans ?_
  rw [View.read_apply]
  have hemb : ((cfg0.win 5).blk t).view.emb (ix3 (0 : Fin 1) k a) = ix3 ⟨t.val, lt128 t⟩ k a :=
    funext fun d => Fin.ext (by
      match d with
      | ⟨0, _⟩ => show win0_5.index t 0 * 1 + 1 * 0 = t.val; rw [e0]; omega
      | ⟨1, _⟩ => show win0_5.index t 1 * 10 + 1 * k.val = k.val; rw [e1]; omega
      | ⟨2, _⟩ => show win0_5.index t 2 * 1024 + 1 * a.val = a.val; rw [e2]; omega)
  rw [hemb, GZ_ix, rowsA, rowsK, rowsMa, rowsMk]
  rfl

/-- The scores array after the run. -/
theorem final5 (c : Dev nD) : (dats m 0 c).arrAt 5 cfg0.N = GZ (A0 m c) (A1 m c) (A2 m c) (A3 m c) :=
  (dats m 0 c).arrAt_eq_of_cover 5 _ (fun t _ => flushed5_eq m hout5 c t) cover5

end Scores

/-! ## The softmax over the answer tokens: window 6 -/

/-- An index of the array is in point t's block iff each coordinate is in the block's range on its axis. -/
theorem mem_blk6 (t : Fin cfg0.N) (i : S128x10x1024.Idx) :
    i ∈ ((cfg0.win 6).blk t).view.set ↔ ∀ a : Fin 3, win0_6.index t a * S1x10x1024.size a ≤ (i a).val
      ∧ (i a).val < win0_6.index t a * S1x10x1024.size a + S1x10x1024.size a := by
  show i ∈ ((View.whole main_v2_2).slice (win0_6.rect t)).set ↔ _
  rw [View.set_slice_whole, Rect.mem_set_unit]
  exact Iff.rfl

/-- Every index lies in the block of its batch element. -/
theorem cover6 (i : S128x10x1024.Idx) :
    ∃ t : Fin cfg0.N, (cfg0.win 6).flush t = true ∧ i ∈ ((cfg0.win 6).blk t).view.set := by
  have hN : cfg0.N = 128 := N_0
  have h0 : (i 0).val < 128 := (i 0).isLt
  have h1 : (i 1).val < 10 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, ⟨e0, e1, e2⟩, -⟩ := idx_facts t
  refine ⟨t, flush0_6 t, ?_⟩
  rw [mem_blk6]
  intro a
  match a with
  | ⟨0, _⟩ => show win0_6.index t 0 * 1 ≤ (i 0).val ∧ (i 0).val < win0_6.index t 0 * 1 + 1; rw [e0]; omega
  | ⟨1, _⟩ => show win0_6.index t 1 * 10 ≤ (i 1).val ∧ (i 1).val < win0_6.index t 1 * 10 + 10; rw [e1]; omega
  | ⟨2, _⟩ => show win0_6.index t 2 * 1024 ≤ (i 2).val ∧ (i 2).val < win0_6.index t 2 * 1024 + 1024; rw [e2]; omega

section W6

variable (hout6 : ∀ (x0 : Vec Ideal S1x1024x768 .f32) (x1 : Vec Ideal S1x10x768 .f32) (x2 : Vec Ideal S1x1x1024 .f32)
    (x3 : Vec Ideal S1x1x10 .f32) (k : Fin 10) (a : Fin 1024),
    out0_6 (F := Ideal) x0 x1 x2 x3 (ix3 (0 : Fin 1) k a) = Cert.Attn.Pa (rA x0) (rK x1) (rMa x2) (rMk x3) k a)
include hout6

/-- What point t writes back is block t of the whole array. -/
theorem flushed6_eq (c : Dev nD) (t : Fin cfg0.N) :
    (dats m 0 c).flushed 6 t = ((cfg0.win 6).blk t).view.read (Elt Ideal) (GPa (A0 m c) (A1 m c) (A2 m c) (A3 m c)) := by
  obtain ⟨-, -, -, -, -, -, ⟨e0, e1, e2⟩, -⟩ := idx_facts t
  show (cfg0.win 6).cut (grid0.coords t) ((dats m 0 c).after 6 t) = _
  rw [after0_6]
  funext y
  obtain ⟨u, k, a, rfl⟩ : ∃ (u : Fin 1) (k : Fin 10) (a : Fin 1024), y = ix3 u k a :=
    ⟨y 0, y 1, y 2, eq_ix3 (n0 := 1) (n1 := 10) (n2 := 1024) y⟩
  obtain rfl : u = 0 := Subsingleton.elim _ _
  refine (hout6 (iblk m c 0 t) (iblk m c 1 t) (iblk m c 2 t) (iblk m c 3 t) k a).trans ?_
  rw [View.read_apply]
  have hemb : ((cfg0.win 6).blk t).view.emb (ix3 (0 : Fin 1) k a) = ix3 ⟨t.val, lt128 t⟩ k a :=
    funext fun d => Fin.ext (by
      match d with
      | ⟨0, _⟩ => show win0_6.index t 0 * 1 + 1 * 0 = t.val; rw [e0]; omega
      | ⟨1, _⟩ => show win0_6.index t 1 * 10 + 1 * k.val = k.val; rw [e1]; omega
      | ⟨2, _⟩ => show win0_6.index t 2 * 1024 + 1 * a.val = a.val; rw [e2]; omega)
  rw [hemb, GPa_ix, rowsA, rowsK, rowsMa, rowsMk]
  rfl

/-- The array after the run. -/
theorem final6 (c : Dev nD) : (dats m 0 c).arrAt 6 cfg0.N = GPa (A0 m c) (A1 m c) (A2 m c) (A3 m c) :=
  (dats m 0 c).arrAt_eq_of_cover 6 _ (fun t _ => flushed6_eq m hout6 c t) cover6

end W6

/-! ## The softmax over the key tokens, transposed: window 7 -/

/-- An index of the array is in point t's block iff each coordinate is in the block's range on its axis. -/
theorem mem_blk7 (t : Fin cfg0.N) (i : S128x10x1024.Idx) :
    i ∈ ((cfg0.win 7).blk t).view.set ↔ ∀ a : Fin 3, win0_7.index t a * S1x10x1024.size a ≤ (i a).val
      ∧ (i a).val < win0_7.index t a * S1x10x1024.size a + S1x10x1024.size a := by
  show i ∈ ((View.whole main_v2_3).slice (win0_7.rect t)).set ↔ _
  rw [View.set_slice_whole, Rect.mem_set_unit]
  exact Iff.rfl

/-- Every index lies in the block of its batch element. -/
theorem cover7 (i : S128x10x1024.Idx) :
    ∃ t : Fin cfg0.N, (cfg0.win 7).flush t = true ∧ i ∈ ((cfg0.win 7).blk t).view.set := by
  have hN : cfg0.N = 128 := N_0
  have h0 : (i 0).val < 128 := (i 0).isLt
  have h1 : (i 1).val < 10 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, ⟨e0, e1, e2⟩, -⟩ := idx_facts t
  refine ⟨t, flush0_7 t, ?_⟩
  rw [mem_blk7]
  intro a
  match a with
  | ⟨0, _⟩ => show win0_7.index t 0 * 1 ≤ (i 0).val ∧ (i 0).val < win0_7.index t 0 * 1 + 1; rw [e0]; omega
  | ⟨1, _⟩ => show win0_7.index t 1 * 10 ≤ (i 1).val ∧ (i 1).val < win0_7.index t 1 * 10 + 10; rw [e1]; omega
  | ⟨2, _⟩ => show win0_7.index t 2 * 1024 ≤ (i 2).val ∧ (i 2).val < win0_7.index t 2 * 1024 + 1024; rw [e2]; omega

section W7

variable (hout7 : ∀ (x0 : Vec Ideal S1x1024x768 .f32) (x1 : Vec Ideal S1x10x768 .f32) (x2 : Vec Ideal S1x1x1024 .f32)
    (x3 : Vec Ideal S1x1x10 .f32) (k : Fin 10) (a : Fin 1024),
    out0_7 (F := Ideal) x0 x1 x2 x3 (ix3 (0 : Fin 1) k a) = Cert.Attn.Pk (rA x0) (rK x1) (rMa x2) (rMk x3) a k)
include hout7

/-- What point t writes back is block t of the whole array. -/
theorem flushed7_eq (c : Dev nD) (t : Fin cfg0.N) :
    (dats m 0 c).flushed 7 t = ((cfg0.win 7).blk t).view.read (Elt Ideal) (GPkT (A0 m c) (A1 m c) (A2 m c) (A3 m c)) := by
  obtain ⟨-, -, -, -, -, -, -, ⟨e0, e1, e2⟩, -⟩ := idx_facts t
  show (cfg0.win 7).cut (grid0.coords t) ((dats m 0 c).after 7 t) = _
  rw [after0_7]
  funext y
  obtain ⟨u, k, a, rfl⟩ : ∃ (u : Fin 1) (k : Fin 10) (a : Fin 1024), y = ix3 u k a :=
    ⟨y 0, y 1, y 2, eq_ix3 (n0 := 1) (n1 := 10) (n2 := 1024) y⟩
  obtain rfl : u = 0 := Subsingleton.elim _ _
  refine (hout7 (iblk m c 0 t) (iblk m c 1 t) (iblk m c 2 t) (iblk m c 3 t) k a).trans ?_
  rw [View.read_apply]
  have hemb : ((cfg0.win 7).blk t).view.emb (ix3 (0 : Fin 1) k a) = ix3 ⟨t.val, lt128 t⟩ k a :=
    funext fun d => Fin.ext (by
      match d with
      | ⟨0, _⟩ => show win0_7.index t 0 * 1 + 1 * 0 = t.val; rw [e0]; omega
      | ⟨1, _⟩ => show win0_7.index t 1 * 10 + 1 * k.val = k.val; rw [e1]; omega
      | ⟨2, _⟩ => show win0_7.index t 2 * 1024 + 1 * a.val = a.val; rw [e2]; omega)
  rw [hemb, GPkT_ix, rowsA, rowsK, rowsMa, rowsMk]
  rfl

/-- The array after the run. -/
theorem final7 (c : Dev nD) : (dats m 0 c).arrAt 7 cfg0.N = GPkT (A0 m c) (A1 m c) (A2 m c) (A3 m c) :=
  (dats m 0 c).arrAt_eq_of_cover 7 _ (fun t _ => flushed7_eq m hout7 c t) cover7

end W7

/-! ## The answer tokens' gates: window 8 -/

/-- An index of the array is in point t's block iff each coordinate is in the block's range on its axis. -/
theorem mem_blk8 (t : Fin cfg0.N) (i : S128x1x1024.Idx) :
    i ∈ ((cfg0.win 8).blk t).view.set ↔ ∀ a : Fin 3, win0_8.index t a * S1x1x1024.size a ≤ (i a).val
      ∧ (i a).val < win0_8.index t a * S1x1x1024.size a + S1x1x1024.size a := by
  show i ∈ ((View.whole main_v2_4).slice (win0_8.rect t)).set ↔ _
  rw [View.set_slice_whole, Rect.mem_set_unit]
  exact Iff.rfl

/-- Every index lies in the block of its batch element. -/
theorem cover8 (i : S128x1x1024.Idx) :
    ∃ t : Fin cfg0.N, (cfg0.win 8).flush t = true ∧ i ∈ ((cfg0.win 8).blk t).view.set := by
  have hN : cfg0.N = 128 := N_0
  have h0 : (i 0).val < 128 := (i 0).isLt
  have h1 : (i 1).val < 1 := (i 1).isLt
  have h2 : (i 2).val < 1024 := (i 2).isLt
  obtain ⟨t, ht⟩ : ∃ t : Fin cfg0.N, t.val = (i 0).val := ⟨⟨(i 0).val, by omega⟩, rfl⟩
  obtain ⟨-, -, -, -, -, -, -, -, ⟨e0, e1, e2⟩, -⟩ := idx_facts t
  refine ⟨t, flush0_8 t, ?_⟩
  rw [mem_blk8]
  intro a
  match a with
  | ⟨0, _⟩ => show win0_8.index t 0 * 1 ≤ (i 0).val ∧ (i 0).val < win0_8.index t 0 * 1 + 1; rw [e0]; omega
  | ⟨1, _⟩ => show win0_8.index t 1 * 1 ≤ (i 1).val ∧ (i 1).val < win0_8.index t 1 * 1 + 1; rw [e1]; omega
  | ⟨2, _⟩ => show win0_8.index t 2 * 1024 ≤ (i 2).val ∧ (i 2).val < win0_8.index t 2 * 1024 + 1024; rw [e2]; omega

section W8

variable (hout8 : ∀ (x0 : Vec Ideal S1x1024x768 .f32) (x1 : Vec Ideal S1x10x768 .f32) (x2 : Vec Ideal S1x1x1024 .f32)
    (x3 : Vec Ideal S1x1x10 .f32) (a : Fin 1024),
    out0_8 (F := Ideal) x0 x1 x2 x3 (ix3 (0 : Fin 1) (0 : Fin 1) a) = Cert.Attn.betaA (rA x0) (rK x1) (rMa x2) (rMk x3) a)
include hout8

/-- What point t writes back is block t of the whole array. -/
theorem flushed8_eq (c : Dev nD) (t : Fin cfg0.N) :
    (dats m 0 c).flushed 8 t = ((cfg0.win 8).blk t).view.read (Elt Ideal) (GbA (A0 m c) (A1 m c) (A2 m c) (A3 m c)) := by
  obtain ⟨-, -, -, -, -, -, -, -, ⟨e0, e1, e2⟩, -⟩ := idx_facts t
  show (cfg0.win 8).cut (grid0.coords t) ((dats m 0 c).after 8 t) = _
  rw [after0_8]
  funext y
  obtain ⟨u, u', a, rfl⟩ : ∃ (u : Fin 1) (u' : Fin 1) (a : Fin 1024), y = ix3 u u' a :=
    ⟨y 0, y 1, y 2, eq_ix3 (n0 := 1) (n1 := 1) (n2 := 1024) y⟩
  obtain rfl : u = 0 := Subsingleton.elim _ _
  obtain rfl : u' = 0 := Subsingleton.elim _ _
  refine (hout8 (iblk m c 0 t) (iblk m c 1 t) (iblk m c 2 t) (iblk m c 3 t) a).trans ?_
  rw [View.read_apply]
  have hemb : ((cfg0.win 8).blk t).view.emb (ix3 (0 : Fin 1) (0 : Fin 1) a) = ix3 ⟨t.val, lt128 t⟩ (0 : Fin 1) a :=
    funext fun d => Fin.ext (by
      match d with
      | ⟨0, _⟩ => show win0_8.index t 0 * 1 + 1 * 0 = t.val; rw [e0]; omega
      | ⟨1, _⟩ => show win0_8.index t 1 * 1 + 1 * 0 = 0; rw [e1]
      | ⟨2, _⟩ => show win0_8.index t 2 * 1024 + 1 * a.val = a.val; rw [e2]; omega)
  rw [hemb, GbA_ix, rowsA, rowsK, rowsMa, rowsMk]
  rfl

/-- The array after the run. -/
theorem final8 (c : Dev nD) : (dats m 0 c).arrAt 8 cfg0.N = GbA (A0 m c) (A1 m c) (A2 m c) (A3 m c) :=
  (dats m 0 c).arrAt_eq_of_cover 8 _ (fun t _ => flushed8_eq m hout8 c t) cover8

end W8

/-! ## The key tokens' gates: window 9 -/

/-- An index of the array is in point t's block iff each coordinate is in the block's range on its axis. -/
theorem mem_blk9 (t : Fin cfg0.N) (i : S128x1x10.Idx) :
    i ∈ ((cfg0.win 9).blk t).view.set ↔ ∀ a : Fin 3, win0_9.index t a * S1x1x10.size a ≤ (i a).val
      ∧ (i a).val < win0_9.index t a * S1x1x10.size a + S1x1x10.size a := by
  show i ∈ ((View.whole main_v2_5).slice (win0_9.rect t)).set ↔ _
  rw [View.set_slice_whole, Rect.mem_set_unit]
  exact Iff.rfl

/-- Every index lies in the block of its batch element. -/
theorem cover9 (i : S128x1x10.Idx) :
    ∃ t : Fin cfg0.N, (cfg0.win 9).flush t = true ∧ i ∈ ((cfg0.win 9).blk t).view.set := by
  have hN : cfg0.N = 128 := N_0
  have h0 : (i 0).val < 128 := (i 0).isLt
  have h1 : (i 1).val < 1 := (i 1).isLt
  have h2 : (i 2).val < 10 := (i 2).isLt
  obtain ⟨t, ht⟩ : ∃ t : Fin cfg0.N, t.val = (i 0).val := ⟨⟨(i 0).val, by omega⟩, rfl⟩
  obtain ⟨-, -, -, -, -, -, -, -, -, ⟨e0, e1, e2⟩⟩ := idx_facts t
  refine ⟨t, flush0_9 t, ?_⟩
  rw [mem_blk9]
  intro a
  match a with
  | ⟨0, _⟩ => show win0_9.index t 0 * 1 ≤ (i 0).val ∧ (i 0).val < win0_9.index t 0 * 1 + 1; rw [e0]; omega
  | ⟨1, _⟩ => show win0_9.index t 1 * 1 ≤ (i 1).val ∧ (i 1).val < win0_9.index t 1 * 1 + 1; rw [e1]; omega
  | ⟨2, _⟩ => show win0_9.index t 2 * 10 ≤ (i 2).val ∧ (i 2).val < win0_9.index t 2 * 10 + 10; rw [e2]; omega

section W9

variable (hout9 : ∀ (x0 : Vec Ideal S1x1024x768 .f32) (x1 : Vec Ideal S1x10x768 .f32) (x2 : Vec Ideal S1x1x1024 .f32)
    (x3 : Vec Ideal S1x1x10 .f32) (k : Fin 10),
    out0_9 (F := Ideal) x0 x1 x2 x3 (ix3 (0 : Fin 1) (0 : Fin 1) k) = Cert.Attn.betaK (rA x0) (rK x1) (rMa x2) (rMk x3) k)
include hout9

/-- What point t writes back is block t of the whole array. -/
theorem flushed9_eq (c : Dev nD) (t : Fin cfg0.N) :
    (dats m 0 c).flushed 9 t = ((cfg0.win 9).blk t).view.read (Elt Ideal) (GbK (A0 m c) (A1 m c) (A2 m c) (A3 m c)) := by
  obtain ⟨-, -, -, -, -, -, -, -, -, ⟨e0, e1, e2⟩⟩ := idx_facts t
  show (cfg0.win 9).cut (grid0.coords t) ((dats m 0 c).after 9 t) = _
  rw [after0_9]
  funext y
  obtain ⟨u, u', k, rfl⟩ : ∃ (u : Fin 1) (u' : Fin 1) (k : Fin 10), y = ix3 u u' k :=
    ⟨y 0, y 1, y 2, eq_ix3 (n0 := 1) (n1 := 1) (n2 := 10) y⟩
  obtain rfl : u = 0 := Subsingleton.elim _ _
  obtain rfl : u' = 0 := Subsingleton.elim _ _
  refine (hout9 (iblk m c 0 t) (iblk m c 1 t) (iblk m c 2 t) (iblk m c 3 t) k).trans ?_
  rw [View.read_apply]
  have hemb : ((cfg0.win 9).blk t).view.emb (ix3 (0 : Fin 1) (0 : Fin 1) k) = ix3 ⟨t.val, lt128 t⟩ (0 : Fin 1) k :=
    funext fun d => Fin.ext (by
      match d with
      | ⟨0, _⟩ => show win0_9.index t 0 * 1 + 1 * 0 = t.val; rw [e0]; omega
      | ⟨1, _⟩ => show win0_9.index t 1 * 1 + 1 * 0 = 0; rw [e1]
      | ⟨2, _⟩ => show win0_9.index t 2 * 10 + 1 * k.val = k.val; rw [e2]; omega)
  rw [hemb, GbK_ix, rowsA, rowsK, rowsMa, rowsMk]
  rfl

/-- The array after the run. -/
theorem final9 (c : Dev nD) : (dats m 0 c).arrAt 9 cfg0.N = GbK (A0 m c) (A1 m c) (A2 m c) (A3 m c) :=
  (dats m 0 c).arrAt_eq_of_cover 9 _ (fun t _ => flushed9_eq m hout9 c t) cover9

end W9

/-! ## The pooled vectors: window 4 -/

/-- An index of the array is in point t's block iff each coordinate is in the block's range on its axis. -/
theorem mem_blk4 (t : Fin cfg0.N) (i : S128x1x1536.Idx) :
    i ∈ ((cfg0.win 4).blk t).view.set ↔ ∀ a : Fin 3, win0_4.index t a * S1x1x1536.size a ≤ (i a).val
      ∧ (i a).val < win0_4.index t a * S1x1x1536.size a + S1x1x1536.size a := by
  show i ∈ ((View.whole main_v2_0).slice (win0_4.rect t)).set ↔ _
  rw [View.set_slice_whole, Rect.mem_set_unit]
  exact Iff.rfl

/-- Every index lies in the block of its batch element. -/
theorem cover4 (i : S128x1x1536.Idx) :
    ∃ t : Fin cfg0.N, (cfg0.win 4).flush t = true ∧ i ∈ ((cfg0.win 4).blk t).view.set := by
  have hN : cfg0.N = 128 := N_0
  have h0 : (i 0).val < 128 := (i 0).isLt
  have h1 : (i 1).val < 1 := (i 1).isLt
  have h2 : (i 2).val < 1536 := (i 2).isLt
  obtain ⟨t, ht⟩ : ∃ t : Fin cfg0.N, t.val = (i 0).val := ⟨⟨(i 0).val, by omega⟩, rfl⟩
  obtain ⟨-, -, -, -, ⟨e0, e1, e2⟩, -⟩ := idx_facts t
  refine ⟨t, flush0_4 t, ?_⟩
  rw [mem_blk4]
  intro a
  match a with
  | ⟨0, _⟩ => show win0_4.index t 0 * 1 ≤ (i 0).val ∧ (i 0).val < win0_4.index t 0 * 1 + 1; rw [e0]; omega
  | ⟨1, _⟩ => show win0_4.index t 1 * 1 ≤ (i 1).val ∧ (i 1).val < win0_4.index t 1 * 1 + 1; rw [e1]; omega
  | ⟨2, _⟩ => show win0_4.index t 2 * 1536 ≤ (i 2).val ∧ (i 2).val < win0_4.index t 2 * 1536 + 1536; rw [e2]; omega

section W4

variable (hout4 : ∀ (x0 : Vec Ideal S1x1024x768 .f32) (x1 : Vec Ideal S1x10x768 .f32) (x2 : Vec Ideal S1x1x1024 .f32)
    (x3 : Vec Ideal S1x1x10 .f32) (j : Fin 1536),
    out0_4 (F := Ideal) x0 x1 x2 x3 (ix3 (0 : Fin 1) (0 : Fin 1) j) = Cert.Attn.f (rA x0) (rK x1) (rMa x2) (rMk x3) j.val)
include hout4

/-- What point t writes back is block t of the whole array. -/
theorem flushed4_eq (c : Dev nD) (t : Fin cfg0.N) :
    (dats m 0 c).flushed 4 t = ((cfg0.win 4).blk t).view.read (Elt Ideal) (Gf3 (A0 m c) (A1 m c) (A2 m c) (A3 m c)) := by
  obtain ⟨-, -, -, -, ⟨e0, e1, e2⟩, -⟩ := idx_facts t
  show (cfg0.win 4).cut (grid0.coords t) ((dats m 0 c).after 4 t) = _
  rw [after0_4]
  funext y
  obtain ⟨u, u', j, rfl⟩ : ∃ (u : Fin 1) (u' : Fin 1) (j : Fin 1536), y = ix3 u u' j :=
    ⟨y 0, y 1, y 2, eq_ix3 (n0 := 1) (n1 := 1) (n2 := 1536) y⟩
  obtain rfl : u = 0 := Subsingleton.elim _ _
  obtain rfl : u' = 0 := Subsingleton.elim _ _
  refine (hout4 (iblk m c 0 t) (iblk m c 1 t) (iblk m c 2 t) (iblk m c 3 t) j).trans ?_
  rw [View.read_apply]
  have hemb : ((cfg0.win 4).blk t).view.emb (ix3 (0 : Fin 1) (0 : Fin 1) j) = ix3 ⟨t.val, lt128 t⟩ (0 : Fin 1) j :=
    funext fun d => Fin.ext (by
      match d with
      | ⟨0, _⟩ => show win0_4.index t 0 * 1 + 1 * 0 = t.val; rw [e0]; omega
      | ⟨1, _⟩ => show win0_4.index t 1 * 1 + 1 * 0 = 0; rw [e1]
      | ⟨2, _⟩ => show win0_4.index t 2 * 1536 + 1 * j.val = j.val; rw [e2]; omega)
  rw [hemb, Gf3_ix, rowsA, rowsK, rowsMa, rowsMk]
  rfl

/-- The array after the run. -/
theorem final4 (c : Dev nD) : (dats m 0 c).arrAt 4 cfg0.N = Gf3 (A0 m c) (A1 m c) (A2 m c) (A3 m c) :=
  (dats m 0 c).arrAt_eq_of_cover 4 _ (fun t _ => flushed4_eq m hout4 c t) cover4

end W4

/-! ## The pooled vectors re-laid by the host after the region -/

section Tail

variable (hout4 : ∀ (x0 : Vec Ideal S1x1024x768 .f32) (x1 : Vec Ideal S1x10x768 .f32) (x2 : Vec Ideal S1x1x1024 .f32)
    (x3 : Vec Ideal S1x1x10 .f32) (j : Fin 1536),
    out0_4 (F := Ideal) x0 x1 x2 x3 (ix3 (0 : Fin 1) (0 : Fin 1) j) = Cert.Attn.f (rA x0) (rK x1) (rMa x2) (rMk x3) j.val)
include hout4

theorem tail_v3 (c : Dev nD) :
    Pipeline.afterTail₀ cfgs (dats m) 0 (V0 m) [hostOps1] c main_v3 = Gf (A0 m c) (A1 m c) (A2 m c) (A3 m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2_0) = Gf3 (A0 m c) (A1 m c) (A2 m c) (A3 m c) :=
    (Pipeline.withArrays_arr spec0 launch0.win.arr_inj c _ _ 4).trans (final4 m hout4 c)
  rw [hw]
  exact reshape_Gf3 _ _ _ _ _

end Tail

/-! ## The run, read -/

section Run

variable (hout4 : ∀ (x0 : Vec Ideal S1x1024x768 .f32) (x1 : Vec Ideal S1x10x768 .f32) (x2 : Vec Ideal S1x1x1024 .f32)
    (x3 : Vec Ideal S1x1x10 .f32) (j : Fin 1536),
    out0_4 (F := Ideal) x0 x1 x2 x3 (ix3 (0 : Fin 1) (0 : Fin 1) j) = Cert.Attn.f (rA x0) (rK x1) (rMa x2) (rMk x3) j.val)
  (hout5 : ∀ (x0 : Vec Ideal S1x1024x768 .f32) (x1 : Vec Ideal S1x10x768 .f32) (x2 : Vec Ideal S1x1x1024 .f32)
    (x3 : Vec Ideal S1x1x10 .f32) (k : Fin 10) (a : Fin 1024),
    out0_5 (F := Ideal) x0 x1 x2 x3 (ix3 (0 : Fin 1) k a) = Cert.Attn.Z (rA x0) (rK x1) (rMa x2) (rMk x3) k a)
  (hout6 : ∀ (x0 : Vec Ideal S1x1024x768 .f32) (x1 : Vec Ideal S1x10x768 .f32) (x2 : Vec Ideal S1x1x1024 .f32)
    (x3 : Vec Ideal S1x1x10 .f32) (k : Fin 10) (a : Fin 1024),
    out0_6 (F := Ideal) x0 x1 x2 x3 (ix3 (0 : Fin 1) k a) = Cert.Attn.Pa (rA x0) (rK x1) (rMa x2) (rMk x3) k a)
  (hout7 : ∀ (x0 : Vec Ideal S1x1024x768 .f32) (x1 : Vec Ideal S1x10x768 .f32) (x2 : Vec Ideal S1x1x1024 .f32)
    (x3 : Vec Ideal S1x1x10 .f32) (k : Fin 10) (a : Fin 1024),
    out0_7 (F := Ideal) x0 x1 x2 x3 (ix3 (0 : Fin 1) k a) = Cert.Attn.Pk (rA x0) (rK x1) (rMa x2) (rMk x3) a k)
  (hout8 : ∀ (x0 : Vec Ideal S1x1024x768 .f32) (x1 : Vec Ideal S1x10x768 .f32) (x2 : Vec Ideal S1x1x1024 .f32)
    (x3 : Vec Ideal S1x1x10 .f32) (a : Fin 1024),
    out0_8 (F := Ideal) x0 x1 x2 x3 (ix3 (0 : Fin 1) (0 : Fin 1) a) = Cert.Attn.betaA (rA x0) (rK x1) (rMa x2) (rMk x3) a)
  (hout9 : ∀ (x0 : Vec Ideal S1x1024x768 .f32) (x1 : Vec Ideal S1x10x768 .f32) (x2 : Vec Ideal S1x1x1024 .f32)
    (x3 : Vec Ideal S1x1x10 .f32) (k : Fin 10),
    out0_9 (F := Ideal) x0 x1 x2 x3 (ix3 (0 : Fin 1) (0 : Fin 1) k) = Cert.Attn.betaK (rA x0) (rK x1) (rMa x2) (rMk x3) k)
include hout4 hout5 hout6 hout7 hout8 hout9

/-- Every weakly fair execution of the idealized kernel's program terminates with the six result arrays at the six
    whole-array functions of the argument arrays as launched, and the arguments unchanged. -/
theorem run : θ_run defs (onTc (τ := τ) (main (F := Ideal))) ⟨m, fun _ => 0, ρ⟩ fun r => ∀ c : Dev nD,
      r.2.mem ((c.tc : Thread nD τ).loc main_v3) = Gf (A0 m c) (A1 m c) (A2 m c) (A3 m c)
      ∧ r.2.mem ((c.tc : Thread nD τ).loc main_v2_1) = GZ (A0 m c) (A1 m c) (A2 m c) (A3 m c)
      ∧ r.2.mem ((c.tc : Thread nD τ).loc main_v2_2) = GPa (A0 m c) (A1 m c) (A2 m c) (A3 m c)
      ∧ r.2.mem ((c.tc : Thread nD τ).loc main_v2_3) = GPkT (A0 m c) (A1 m c) (A2 m c) (A3 m c)
      ∧ r.2.mem ((c.tc : Thread nD τ).loc main_v2_4) = GbA (A0 m c) (A1 m c) (A2 m c) (A3 m c)
      ∧ r.2.mem ((c.tc : Thread nD τ).loc main_v2_5) = GbK (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v3 (Pipeline.mem_restRefs_of main_v3 (by decide) (by decide))).trans (tail_v3 m hout4 c),
      ((h c).1 5).trans (final5 m hout5 c),
      ((h c).1 6).trans (final6 m hout6 c),
      ((h c).1 7).trans (final7 m hout7 c),
      ((h c).1 8).trans (final8 m hout8 c),
      ((h c).1 9).trans (final9 m hout9 c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Run

end Cert.KernelIdeal.Arr

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.LibRows.lean ====
/-
  Rows of a matrix, read at an index, on the extended reals.

  For an a × b matrix v: the sum along the second axis, read at row p, is the sum over k of v (p, k); the maximum
  along the second axis, read at row p, is the fold of max over k of v (p, k) from the start value the accumulator
  word denotes; and one value per row, re-cast as an a × 1 column and laid across c columns ("keepdims", then a
  broadcast), reads at (p, q) the value of row p.  The index of the matrix that a row index with the coordinate k
  put back on the second axis names is (p, k).  All for any extents; nothing is evaluated.
-/
import proofs.«136482_j5557687681282_2_alg».proof.Proof.LibColumn
import Idealize.ShloMosaic.Lib.ValueIdx
import Idealize.ShloMosaic.Lib.Pipeline.Value
import Idealize.ShloMosaic.PureOps.Ideal.Laws

noncomputable section

namespace Cert.LibRows

open Idealize.ShloMosaic Idealize.ShloMosaic.ValueIdx

variable {a b : ℕ}

/-- The index of a matrix over row p with coordinate k put on the second axis is (p, k). -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A sum along the second axis, read at row p: the sum of the row's entries. -/
theorem rowSum_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- A maximum along the second axis, read at row p: the fold of max over the row's entries from the start value. -/
theorem rowMaxf_apply {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (Finset.fold_congr fun k _ => congrArg v (lift_row h p k))

/-- One value per row, re-cast as a column and laid across c columns, read at (p, q): the value of row p. -/
theorem column_apply {α : Type} {c : ℕ} (u : (⟨1, ![a]⟩ : Shape).Idx → α)
    (hc : (⟨1, ![a]⟩ : Shape).ShapeCasts ⟨2, ![a, 1]⟩) (hb : (⟨2, ![a, 1]⟩ : Shape).Broadcasts ⟨2, ![a, c]⟩)
    (p : Fin a) (q : Fin c) :
    broadcastTo ⟨2, ![a, c]⟩ (shapeCast ⟨2, ![a, 1]⟩ u hc) hb (ix2 p q) = u (ix1 p) :=
  (Cert.LibColumn.broadcastTo_a1_ab_apply (shapeCast ⟨2, ![a, 1]⟩ u hc) hb p q).trans
    (Cert.LibColumn.shapeCast_a_a1_apply u hc p 0)

end Cert.LibRows

end
-- ==== Proof.KernelBase.lean ====
/-
  The first values of the kernel's body, read at an index.

  A grid point holds one batch element: its answers' block A (1 × 1024 × 768), its keys' block K (1 × 10 × 768) and the two
  mask blocks ma (1 × 1 × 1024), mk (1 × 1 × 10).  The body first drops the unit axes, so that the masks are vectors and the
  blocks matrices; then it forms, in this order: the additive biases |m − 1| · (−10⁴) of the two masks; the masked rows
  an(a, e) = A(a, e) · ma(a) and ky(k, e) = K(k, e) · mk(k), each mask laid beside its matrix as a column repeated across the
  768 features; the raw scores Z(k, a) = Σ_e ky(k, e) · an(a, e), a product of the masked keys with the transposed masked
  answers accumulated into zero (the narrowing of the operands is the identity on the extended reals); the row norms
  sqrt(max(Σ_e x(e)², ε)) of the masked rows; and the cosine scores, the raw scores divided entrywise by the product of
  the key's norm (a column repeated across the 1024 answers) and the answer's norm (a row repeated across the 10 keys).

  Each statement reads one of these values at an index written by its coordinates and says it is the corresponding
  quantity of the specification, as a function of the rows of the four blocks.  A cast that only drops or adds unit axes
  keeps the row-major position; a column laid across a matrix reads its row's value; a transposed matrix reads the
  mirrored entry; a sum along the second axis is the sum of the row's entries.
-/
import proofs.«136482_j5557687681282_2_alg».proof.Proof.Rows
import proofs.«136482_j5557687681282_2_alg».proof.Proof.LibDot
import proofs.«136482_j5557687681282_2_alg».proof.Proof.LibRows
import proofs.«136482_j5557687681282_2_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.Rows

/-- A `[1, 1, n]` array cast to `[n]` reads, at `i`, the operand at `(0, 0, i)`: the cast keeps the row-major position. -/
theorem shapeCast_11a_a_apply {α : Type} {n : ℕ} (x : (⟨3, ![1, 1, n]⟩ : Shape).Idx → α)
    (h : (⟨3, ![1, 1, n]⟩ : Shape).ShapeCasts ⟨1, ![n]⟩) (i : Fin n) :
    shapeCast ⟨1, ![n]⟩ x h (ix1 i) = x (ix3 (0 : Fin 1) (0 : Fin 1) i) :=
  shapeCast_apply x h _ _ (by
    rw [Shape.rowMajor_val_three, Shape.rowMajor_val_one]
    show (0 * 1 + 0) * n + i.val = i.val
    rw [Nat.zero_mul, Nat.zero_add])

variable (v0 : Vec Ideal S1x1x1024 .f32) (v2 : Vec Ideal S1x1x10 .f32)
variable (v14 : Vec Ideal S1x1024x768 .f32) (v19 : Vec Ideal S1x10x768 .f32)
variable (a : Fin 1024) (k : Fin 10) (e : Fin 768)

/-! ## The masks as vectors, and their biases -/

/-- The answers' mask block with its two unit axes dropped, at answer token a. -/
theorem pay2_apply : k0_pay2 (F := Ideal) v0 (ix1 a) = rMa v0 a := by
  unfold k0_pay2
  exact shapeCast_11a_a_apply v0 _ a

/-- The keys' mask block with its two unit axes dropped, at key token k. -/
theorem pay3_apply : k0_pay3 (F := Ideal) v2 (ix1 k) = rMk v2 k := by
  unfold k0_pay3
  exact shapeCast_11a_a_apply v2 _ k

/-- The bias of the answers' mask: |m − 1| · (−10⁴), the absolute value being max x (−x). -/
theorem pay4_apply : k0_pay4 (F := Ideal) v0 (ix1 a) = Cert.Attn.bias (rMa v0 a) := by
  unfold k0_pay4
  show max (k0_pay2 (F := Ideal) v0 (ix1 a) - Cert.Attn.cOne) (-(k0_pay2 (F := Ideal) v0 (ix1 a) - Cert.Attn.cOne))
      * Cert.Attn.cNegBig = _
  rw [pay2_apply]
  rfl

/-- The bias of the keys' mask. -/
theorem pay5_apply : k0_pay5 (F := Ideal) v2 (ix1 k) = Cert.Attn.bias (rMk v2 k) := by
  unfold k0_pay5
  show max (k0_pay3 (F := Ideal) v2 (ix1 k) - Cert.Attn.cOne) (-(k0_pay3 (F := Ideal) v2 (ix1 k) - Cert.Attn.cOne))
      * Cert.Attn.cNegBig = _
  rw [pay3_apply]
  rfl

/-! ## The masked rows -/

/-- The masked answers: the block as a matrix, times the mask laid beside it as a column repeated across the features. -/
theorem pay6_apply : k0_pay6 (F := Ideal) v0 v14 (ix2 a e) = Cert.Attn.an (rA v14) (rMa v0) a e := by
  unfold k0_pay6
  show shapeCast S1024x768 v14 _ (ix2 a e)
      * broadcastTo S1024x768 (shapeCast S1024x1 (k0_pay2 (F := Ideal) v0) _) _ (ix2 a e) = _
  rw [shapeCast_1ab_ab_apply, Cert.LibRows.column_apply, pay2_apply]
  rfl

/-- The masked keys. -/
theorem pay7_apply : k0_pay7 (F := Ideal) v2 v19 (ix2 k e) = Cert.Attn.ky (rK v19) (rMk v2) k e := by
  unfold k0_pay7
  show shapeCast S10x768 v19 _ (ix2 k e)
      * broadcastTo S10x768 (shapeCast S10x1 (k0_pay3 (F := Ideal) v2) _) _ (ix2 k e) = _
  rw [shapeCast_1ab_ab_apply, Cert.LibRows.column_apply, pay3_apply]
  rfl

/-- The masked answers narrowed for the product: the same values on the extended reals. -/
theorem pay8_apply : k0_pay8 (F := Ideal) v0 v14 (ix2 a e) = Cert.Attn.an (rA v14) (rMa v0) a e := by
  unfold k0_pay8
  exact pay6_apply v0 v14 a e

/-- The masked keys narrowed for the product: the same values on the extended reals. -/
theorem pay9_apply : k0_pay9 (F := Ideal) v2 v19 (ix2 k e) = Cert.Attn.ky (rK v19) (rMk v2) k e := by
  unfold k0_pay9
  exact pay7_apply v2 v19 k e

/-! ## The raw scores -/

/-- The raw scores: the masked keys times the transposed masked answers, accumulated into zero, is the sum over the
    features of ky(k, e) · an(a, e). -/
theorem pay10_apply : k0_pay10 (F := Ideal) v0 v2 v14 v19 (ix2 k a)
    = Cert.Attn.Z (rA v14) (rK v19) (rMa v0) (rMk v2) k a := by
  unfold k0_pay10
  refine (Cert.LibDot.matmul_zero_plain_apply dot_S10x768_S768x1024_S10x1024_1_0_0_1_n_n rfl rfl rfl rfl rfl rfl none
    (k0_pay9 (F := Ideal) v2 v19) (transpose S768x1024 [1, 0] (k0_pay8 (F := Ideal) v0 v14) _) (ix2 k a)).trans ?_
  refine Finset.sum_congr rfl fun e _ => ?_
  show k0_pay9 (F := Ideal) v2 v19 (ix2 k e)
      * transpose S768x1024 [1, 0] (k0_pay8 (F := Ideal) v0 v14) _ (ix2 e a) = _
  rw [transpose_ix2_apply, pay9_apply, pay8_apply]

/-! ## The row norms -/

/-- The norm of a masked answer row: the square root of the larger of the row's sum of squares and ε. -/
theorem pay11_apply : k0_pay11 (F := Ideal) v0 v14 (ix1 a)
    = Cert.Attn.norm (Cert.Attn.an (rA v14) (rMa v0) a) := by
  unfold k0_pay11
  show Ideal.sqrt (max (multiReduction .add [1] S1024
      (mulf (k0_pay6 (F := Ideal) v0 v14) (k0_pay6 (F := Ideal) v0 v14)) 0x00000000#32 _ (.inl rfl) rfl (ix1 a))
      Cert.Attn.cEps) = _
  refine congrArg (fun s => Ideal.sqrt (max s Cert.Attn.cEps)) ?_
  refine (Cert.LibRows.rowSum_apply _ _ _ _ _ a).trans ?_
  refine Finset.sum_congr rfl fun e _ => ?_
  show k0_pay6 (F := Ideal) v0 v14 (ix2 a e) * k0_pay6 (F := Ideal) v0 v14 (ix2 a e) = _
  rw [pay6_apply]

/-- The norm of a masked key row. -/
theorem pay12_apply : k0_pay12 (F := Ideal) v2 v19 (ix1 k)
    = Cert.Attn.norm (Cert.Attn.ky (rK v19) (rMk v2) k) := by
  unfold k0_pay12
  show Ideal.sqrt (max (multiReduction .add [1] S10
      (mulf (k0_pay7 (F := Ideal) v2 v19) (k0_pay7 (F := Ideal) v2 v19)) 0x00000000#32 _ (.inl rfl) rfl (ix1 k))
      Cert.Attn.cEps) = _
  refine congrArg (fun s => Ideal.sqrt (max s Cert.Attn.cEps)) ?_
  refine (Cert.LibRows.rowSum_apply _ _ _ _ _ k).trans ?_
  refine Finset.sum_congr rfl fun e _ => ?_
  show k0_pay7 (F := Ideal) v2 v19 (ix2 k e) * k0_pay7 (F := Ideal) v2 v19 (ix2 k e) = _
  rw [pay7_apply]

/-! ## The cosine scores -/

/-- The scores divided entrywise by the product of the key's norm, a column repeated across the answers, and the answer's
    norm, a row repeated across the keys. -/
theorem pay13_apply (v27 : FVec Ideal S10x1024 .f32) (v32 : FVec Ideal S1024 .f32) (v37 : FVec Ideal S10 .f32) :
    k0_pay13 (F := Ideal) v27 v32 v37 (ix2 k a) = Ideal.div (v27 (ix2 k a)) (v37 (ix1 k) * v32 (ix1 a)) := by
  unfold k0_pay13
  show Ideal.div (v27 (ix2 k a))
      (broadcastTo S10x1024 (shapeCast S10x1 v37 _) _ (ix2 k a)
        * broadcastTo S10x1024 (shapeCast S1x1024 v32 _) _ (ix2 k a)) = _
  rw [Cert.LibRows.column_apply, broadcastTo_1b_ab_apply, shapeCast_a_1a_apply]

end Cert.KernelIdeal.Rows

end
-- ==== Proof.LibUnitAxes.lean ====
/-
  Unit axes added or repeated, read at an index.

  A shape cast that only inserts unit axes keeps the row-major position, so it reads the operand at the index with
  those axes removed: [a, b] → [a, 1, b] at (i, u, j) is the operand at (i, j), and [a] → [1, 1, a] at (u, u', i) is the
  operand at i. A broadcast along unit axes of a three-axis array reads the operand with those coordinates put to 0:
  [a, 1, c], [1, b, c] and [1, 1, c] broadcast to [a, b, c]. All five are generic in the extents and in the element
  type; an axis of the operand whose extent happens to be 1 has only the coordinate 0, so the two readings agree there.
-/
import Idealize.ShloMosaic.Lib.ValueIdx
import Idealize.ShloMosaic.Lib.Pipeline.Value

noncomputable section

namespace Cert.LibUnitAxes

open Idealize.ShloMosaic Idealize.ShloMosaic.ValueIdx

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, u', i)`, the operand at `i`. -/
theorem shapeCast_a_11a_apply {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp only [hu, hu', Nat.zero_mul, Nat.zero_add, Nat.mul_one])

/-- An `[a, 1, c]` array broadcast to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A `[1, 1, c]` array broadcast to `[a, b, c]` reads, at `(p, q, r)`, the operand at `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Layout

end Cert.LibUnitAxes

end
-- ==== Proof.KernelTail.lean ====
/-
  The later values of the kernel body, read at an index.

  Each value the body computes after the score matrix — the two softmaxes of the biased scores, the attended rows, the
  gates, the pooled vector and the re-laid outputs — is read here at an index as a function of ARBITRARY input vectors:
  nothing is assumed about where those vectors come from.

  A printed softmax of the rows of a matrix x is: the maximum along the second axis from −∞, joined once more with the
  −∞ splat; that per-row value laid across the row and subtracted; the exponential; the sum along the second axis,
  laid across the row again; the quotient.  Read at (p, q) this is the row softmax of the specification applied to
  the row q' ↦ x (p, q').  It is proved once for any extents and used for both softmaxes, whose biased score matrices
  differ only in a transpose and in which bias vector is laid across the rows.

  A matrix product into the zero accumulator reads as the plain sum over the contracted coordinate, and rounding to
  the narrower format on the way in is the identity on the extended reals.  A maximum along the FIRST axis of a matrix
  reads at column e as the fold of max over the rows.  Two vectors laid end to end read the first below its length
  and the second, shifted, from there on.
-/
import proofs.«136482_j5557687681282_2_alg».proof.Proof.Spec
import proofs.«136482_j5557687681282_2_alg».proof.Proof.LibDot
import proofs.«136482_j5557687681282_2_alg».proof.Proof.LibRows
import proofs.«136482_j5557687681282_2_alg».proof.Proof.LibUnitAxes
import proofs.«136482_j5557687681282_2_alg».proof.Proof.Gen.KernelIdeal.Skeleton
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen

/-! ## A printed row softmax, for any extents -/

section Softmax

variable {n m : ℕ}

/-- A vector laid as the one row of a matrix and repeated down its rows reads, at (p, q), the vector at q. -/
theorem tailRow_apply {α : Type} (u : (⟨1, ![m]⟩ : Shape).Idx → α)
    (hc : (⟨1, ![m]⟩ : Shape).ShapeCasts ⟨2, ![1, m]⟩) (hb : (⟨2, ![1, m]⟩ : Shape).Broadcasts ⟨2, ![n, m]⟩)
    (p : Fin n) (q : Fin m) :
    broadcastTo ⟨2, ![n, m]⟩ (shapeCast ⟨2, ![1, m]⟩ u hc) hb (ix2 p q) = u (ix1 q) :=
  (broadcastTo_1b_ab_apply _ hb p q).trans (shapeCast_a_1a_apply u hc 0 q)

variable (x : FVec Ideal ⟨2, ![n, m]⟩ .f32) (hr : (⟨2, ![n, m]⟩ : Shape).Reduces [1] ⟨1, ![n]⟩)
  (hc : (⟨1, ![n]⟩ : Shape).ShapeCasts ⟨2, ![n, 1]⟩) (hb : (⟨2, ![n, 1]⟩ : Shape).Broadcasts ⟨2, ![n, m]⟩)

/-- The per-row maximum a printed softmax subtracts: the maximum along the second axis from −∞, joined with −∞. -/
def tailRowMax : FVec Ideal ⟨1, ![n]⟩ .f32 :=
  maximumf (broadcast ⟨1, ![n]⟩ (Scalar.ofBits .f32 0xFF800000#32))
    (multiReduction .maximumf [1] ⟨1, ![n]⟩ x 0xFF800000#32 hr (.inl rfl) rfl)

theorem tailRowMax_apply (p : Fin n) :
    tailRowMax x hr (ix1 p) = Cert.Attn.rowMax (fun q : Fin m => x (ix2 p q)) :=
  congrArg (max Cert.Attn.cNegInf) (Cert.LibRows.rowMaxf_apply x 0xFF800000#32 hr (.inl rfl) rfl p)

/-- The exponentials of a printed softmax: exp of each entry less its row's maximum. -/
def tailExp : FVec Ideal ⟨2, ![n, m]⟩ .f32 :=
  exp (subf x (broadcastTo ⟨2, ![n, m]⟩ (shapeCast ⟨2, ![n, 1]⟩ (tailRowMax x hr) hc) hb))

theorem tailExp_apply (p : Fin n) (q : Fin m) :
    tailExp x hr hc hb (ix2 p q)
      = Ideal.exp (x (ix2 p q) - Cert.Attn.rowMax (fun q' : Fin m => x (ix2 p q'))) :=
  congrArg (fun t => Ideal.exp (x (ix2 p q) - t))
    ((Cert.LibRows.column_apply (tailRowMax x hr) hc hb p q).trans (tailRowMax_apply x hr p))

/-- A printed softmax of the rows of x: the exponentials over their row sums. -/
def tailSoft : FVec Ideal ⟨2, ![n, m]⟩ .f32 :=
  divf (tailExp x hr hc hb)
    (broadcastTo ⟨2, ![n, m]⟩
      (shapeCast ⟨2, ![n, 1]⟩
        (multiReduction .add [1] ⟨1, ![n]⟩ (tailExp x hr hc hb) 0x00000000#32 hr (.inl rfl) rfl) hc) hb)

/-- A printed softmax read at (p, q): the specification's row softmax of row p, at lane q. -/
theorem tailSoft_apply (p : Fin n) (q : Fin m) :
    tailSoft x hr hc hb (ix2 p q) = Cert.Attn.rowSoft (fun q' : Fin m => x (ix2 p q')) q :=
  congrArg₂ Ideal.div (tailExp_apply x hr hc hb p q)
    ((Cert.LibRows.column_apply _ hc hb p q).trans
      ((Cert.LibRows.rowSum_apply (tailExp x hr hc hb) 0x00000000#32 hr (.inl rfl) rfl p).trans
        (Finset.sum_congr rfl fun q' _ => tailExp_apply x hr hc hb p q')))

end Softmax

/-! ## A maximum along the first axis, and two vectors end to end -/

section Columns

variable {n m : ℕ}

/-- The index of a matrix over column q with coordinate p put on the first axis is (p, q). -/
theorem tailLift_col (h : (⟨2, ![n, m]⟩ : Shape).Reduces [0] ⟨1, ![m]⟩) (q : Fin m) (p : Fin n) :
    h.lift (ix1 q) p = ix2 p q := by
  funext c
  match c with
  | ⟨0, _⟩ => exact Fin.ext rfl
  | ⟨1, _⟩ => exact Fin.ext rfl

/-- A maximum along the first axis, read at column q: the fold of max over the column's entries from the start value. -/
theorem tailColMaxf_apply {φ : FTy} (v : FVec Ideal ⟨2, ![n, m]⟩ φ) (acc : BitVec φ.bits)
    (h : (⟨2, ![n, m]⟩ : Shape).Reduces [0] ⟨1, ![m]⟩) (hφ : FKind.Formats φ) (hacc : acc = FKind.maximumf.neutral φ hφ)
    (q : Fin m) :
    multiReduction .maximumf [0] ⟨1, ![m]⟩ v acc h hφ hacc (ix1 q)
      = (Finset.univ : Finset (Fin n)).fold max (Ideal.ofBits φ acc) (fun p => v (ix2 p q)) :=
  (Ideal.multiReduction_maximumf_single v acc h hφ hacc (ix1 q)).trans
    (Finset.fold_congr fun p _ => congrArg v (tailLift_col h q p))

variable {α : Type} {b₁ b₂ b : ℕ}

/-- Two vectors end to end: a position in the first piece's range reads the first piece at that position. -/
theorem tailConcat_left (x₁ : (⟨1, ![b₁]⟩ : Shape).Idx → α) (x₂ : (⟨1, ![b₂]⟩ : Shape).Idx → α)
    (h : Shape.Concatenates [(⟨1, ![b₁]⟩ : Shape), ⟨1, ![b₂]⟩] ⟨1, ![b]⟩ 0) (j : Fin b) (q : Fin b₁)
    (hq : q.val = j.val) :
    concatenate ⟨1, ![b]⟩ 0 [⟨⟨1, ![b₁]⟩, x₁⟩, ⟨⟨1, ![b₂]⟩, x₂⟩] h (ix1 j) = x₁ (ix1 q) :=
  concatenate_pair_apply_left 0 x₁ x₂ h (ix1 j) rfl (ix1 q) fun c => match c with
    | ⟨0, _⟩ => hq

/-- Two vectors end to end: a position past the first piece's range reads the second piece, the first's length less. -/
theorem tailConcat_right (x₁ : (⟨1, ![b₁]⟩ : Shape).Idx → α) (x₂ : (⟨1, ![b₂]⟩ : Shape).Idx → α)
    (h : Shape.Concatenates [(⟨1, ![b₁]⟩ : Shape), ⟨1, ![b₂]⟩] ⟨1, ![b]⟩ 0) (j : Fin b) (q : Fin b₂)
    (hq : q.val + b₁ = j.val) :
    concatenate ⟨1, ![b]⟩ 0 [⟨⟨1, ![b₁]⟩, x₁⟩, ⟨⟨1, ![b₂]⟩, x₂⟩] h (ix1 j) = x₂ (ix1 q) :=
  concatenate_pair_apply_right 0 x₁ x₂ h (ix1 j) rfl rfl (ix1 q)
    (fun c hc => match c, hc with
      | ⟨0, _⟩, hc => absurd rfl hc)
    hq

end Columns

/-! ## The payloads -/

variable (v1 v8 v32 : FVec Ideal S1024 .f32) (v3 v13 v37 v86 v87 v89 : FVec Ideal S10 .f32)
variable (v27 v43 v77 : FVec Ideal S10x1024 .f32) (v58 : FVec Ideal S1024x10 .f32)
variable (v63 : FVec Ideal S1024x768 .f32) (v82 : FVec Ideal S10x768 .f32)
variable (v24 : FVec Ideal S1024x768 .bf16) (v25 : FVec Ideal S10x768 .bf16)
variable (a : Fin 1024) (k : Fin 10) (e : Fin 768) (j : Fin 1536)

/-- The softmax over the key tokens: the score matrix transposed, the key bias laid across each row. -/
theorem pay14_apply : k0_pay14 (F := Ideal) v13 v27 (ix2 a k)
    = Cert.Attn.rowSoft (fun k' : Fin 10 => v27 (ix2 k' a) + v13 (ix1 k')) k := by
  unfold k0_pay14
  refine (tailSoft_apply
    (addf (transpose S1024x10 [1, 0] v27 transposes_S10x1024_p1_0_S1024x10)
      (broadcastTo S1024x10 (shapeCast S1x10 v13 shapeCasts_S10_S1x10) broadcasts_S1x10_S1024x10))
    reduces_S1024x10_S1024 shapeCasts_S1024_S1024x1 broadcasts_S1024x1_S1024x10 a k).trans ?_
  refine congrArg (fun r => Cert.Attn.rowSoft r k) (funext fun k' => ?_)
  exact congrArg₂ (· + ·) (transpose_ix2_apply v27 _ a k') (tailRow_apply v13 _ _ a k')

/-- The softmax over the answer tokens: the answer bias laid across each row of the score matrix. -/
theorem pay16_apply : k0_pay16 (F := Ideal) v8 v27 (ix2 k a)
    = Cert.Attn.rowSoft (fun a' : Fin 1024 => v27 (ix2 k a') + v8 (ix1 a')) a := by
  unfold k0_pay16
  refine (tailSoft_apply
    (addf v27 (broadcastTo S10x1024 (shapeCast S1x1024 v8 shapeCasts_S1024_S1x1024) broadcasts_S1x1024_S10x1024))
    reduces_S10x1024_S10 shapeCasts_S10_S10x1 broadcasts_S10x1_S10x1024 k a).trans ?_
  refine congrArg (fun r => Cert.Attn.rowSoft r a) (funext fun a' => ?_)
  exact congrArg (v27 (ix2 k a') + ·) (tailRow_apply v8 _ _ k a')

/-- The best biased cosine score of a key token: the maximum over the answer tokens, from −∞. -/
theorem pay18_apply : k0_pay18 (F := Ideal) v8 v27 v32 v37 (ix1 k)
    = Cert.Attn.foldMax (fun a : Fin 1024 => k0_pay13 (F := Ideal) v27 v32 v37 (ix2 k a) + v8 (ix1 a)) := by
  unfold k0_pay18
  refine (Cert.LibRows.rowMaxf_apply
    (addf (k0_pay13 (F := Ideal) v27 v32 v37)
      (broadcastTo S10x1024 (shapeCast S1x1024 v8 shapeCasts_S1024_S1x1024) broadcasts_S1x1024_S10x1024))
    0xFF800000#32 reduces_S10x1024_S10 (.inl rfl) rfl k).trans ?_
  exact Finset.fold_congr fun a' _ =>
    congrArg (k0_pay13 (F := Ideal) v27 v32 v37 (ix2 k a') + ·) (tailRow_apply v8 _ _ k a')

/-- The gate of an answer token: the sigmoid of five times its best biased cosine score over the key tokens. -/
theorem pay21_apply : k0_pay21 (F := Ideal) v13 v43 (ix1 a)
    = Cert.Attn.gate (fun k : Fin 10 => v43 (ix2 k a) + v13 (ix1 k)) := by
  unfold k0_pay21
  refine congrArg (fun t => Ideal.logistic (t * Cert.Attn.cFive)) ?_
  refine (Cert.LibRows.rowMaxf_apply
    (addf (transpose S1024x10 [1, 0] v43 transposes_S10x1024_p1_0_S1024x10)
      (broadcastTo S1024x10 (shapeCast S1x10 v13 shapeCasts_S10_S1x10) broadcasts_S1x10_S1024x10))
    0xFF800000#32 reduces_S1024x10_S1024 (.inl rfl) rfl a).trans ?_
  exact Finset.fold_congr fun k' _ =>
    congrArg₂ (· + ·) (transpose_ix2_apply v43 _ a k') (tailRow_apply v13 _ _ a k')

/-- The attended answer rows: the key softmax times the key rows, masked by the answer mask. -/
theorem pay15_apply : k0_pay15 (F := Ideal) v1 v13 v25 v27 (ix2 a e)
    = (∑ k : Fin 10, k0_pay14 (F := Ideal) v13 v27 (ix2 a k) * v25 (ix2 k e)) * v1 (ix1 a) := by
  unfold k0_pay15
  exact congrArg₂ (· * ·)
    (Cert.LibDot.matmul_zero_plain_apply dot_S1024x10_S10x768_S1024x768_1_0_0_1_n_n rfl rfl rfl rfl rfl rfl none
      (truncf .bf16 (k0_pay14 (F := Ideal) v13 v27) bitsLt_bf16_f32) v25 (ix2 a e))
    (Cert.LibRows.column_apply v1 _ _ a e)

/-- The attended key rows: the answer softmax times the answer rows, masked by the key mask. -/
theorem pay17_apply : k0_pay17 (F := Ideal) v3 v8 v24 v27 (ix2 k e)
    = (∑ a : Fin 1024, k0_pay16 (F := Ideal) v8 v27 (ix2 k a) * v24 (ix2 a e)) * v3 (ix1 k) := by
  unfold k0_pay17
  exact congrArg₂ (· * ·)
    (Cert.LibDot.matmul_zero_plain_apply dot_S10x1024_S1024x768_S10x768_1_0_0_1_n_n rfl rfl rfl rfl rfl rfl none
      (truncf .bf16 (k0_pay16 (F := Ideal) v8 v27) bitsLt_bf16_f32) v24 (ix2 k e))
    (Cert.LibRows.column_apply v3 _ _ k e)

/-- The pooled vector: below 768 the maximum over the key tokens of the gated attended key rows, from there on the
    maximum over the answer tokens of the gated attended answer rows, shifted by 768. -/
theorem pay22_apply : k0_pay22 (F := Ideal) v13 v43 v63 v82 v86 v87 (ix3 (0 : Fin 1) (0 : Fin 1) j)
    = if h : j.val < 768 then
        Cert.Attn.foldMax (fun k : Fin 10 => v82 (ix2 k ⟨j.val, h⟩) * k0_pay20 (F := Ideal) v86 v87 (ix1 k))
      else
        Cert.Attn.foldMax (fun a : Fin 1024 =>
          v63 (ix2 a ⟨j.val - 768, by omega⟩) * k0_pay21 (F := Ideal) v13 v43 (ix1 a)) := by
  unfold k0_pay22
  refine (Cert.LibUnitAxes.shapeCast_a_11a_apply _ _ 0 0 j).trans ?_
  split
  next h =>
    refine (tailConcat_left _ _ _ j ⟨j.val, h⟩ rfl).trans ?_
    refine (tailColMaxf_apply
      (mulf v82 (broadcastTo S10x768 (shapeCast S10x1 (k0_pay20 (F := Ideal) v86 v87) shapeCasts_S10_S10x1)
        broadcasts_S10x1_S10x768))
      0xFF800000#32 reduces_S10x768_S768 (.inl rfl) rfl ⟨j.val, h⟩).trans ?_
    exact Finset.fold_congr fun k' _ =>
      congrArg (v82 (ix2 k' ⟨j.val, h⟩) * ·)
        (Cert.LibRows.column_apply (k0_pay20 (F := Ideal) v86 v87) _ _ k' ⟨j.val, h⟩)
  next h =>
    have hq : j.val - 768 < 768 := by omega
    refine (tailConcat_right _ _ _ j ⟨j.val - 768, hq⟩ (by show j.val - 768 + 768 = j.val; omega)).trans ?_
    refine (tailColMaxf_apply
      (mulf v63 (broadcastTo S1024x768 (shapeCast S1024x1 (k0_pay21 (F := Ideal) v13 v43) shapeCasts_S1024_S1024x1)
        broadcasts_S1024x1_S1024x768))
      0xFF800000#32 reduces_S1024x768_S768 (.inl rfl) rfl ⟨j.val - 768, hq⟩).trans ?_
    exact Finset.fold_congr fun a' _ =>
      congrArg (v63 (ix2 a' ⟨j.val - 768, hq⟩) * ·)
        (Cert.LibRows.column_apply (k0_pay21 (F := Ideal) v13 v43) _ _ a' ⟨j.val - 768, hq⟩)
theorem pay23_apply : k0_pay23 (F := Ideal) v27 (ix3 (0 : Fin 1) k a) = v27 (ix2 k a) := by
  unfold k0_pay23
  exact shapeCast_ab_1ab_apply v27 _ 0 k a

theorem pay24_apply : k0_pay24 (F := Ideal) v77 (ix3 (0 : Fin 1) k a) = v77 (ix2 k a) := by
  unfold k0_pay24
  exact shapeCast_ab_1ab_apply v77 _ 0 k a

theorem pay25_apply : k0_pay25 (F := Ideal) v58 (ix3 (0 : Fin 1) k a) = v58 (ix2 a k) := by
  unfold k0_pay25
  exact (shapeCast_ab_1ab_apply _ _ 0 k a).trans (transpose_ix2_apply v58 _ k a)

theorem pay1_apply : k0_pay1 (F := Ideal) v89 (ix3 (0 : Fin 1) (0 : Fin 1) k) = v89 (ix1 k) := by
  unfold k0_pay1
  exact (shapeCast_ab_1ab_apply _ _ 0 0 k).trans (shapeCast_a_1a_apply v89 _ 0 k)

theorem pay19_apply : k0_pay19 (F := Ideal) (ix1 k) = Cert.Attn.cFive := rfl

theorem pay20_apply : k0_pay20 (F := Ideal) v86 v87 (ix1 k) = Ideal.logistic (v86 (ix1 k) * v87 (ix1 k)) := rfl

theorem pay26_apply : k0_pay26 (F := Ideal) v13 v43 (ix3 (0 : Fin 1) (0 : Fin 1) a) = k0_pay21 (F := Ideal) v13 v43 (ix1 a) := by
  unfold k0_pay26
  exact (shapeCast_ab_1ab_apply _ _ 0 0 a).trans (shapeCast_a_1a_apply _ _ 0 a)

end Cert.KernelIdeal.Rows
end
-- ==== Proof.KernelOut.lean ====
/-
  The kernel body's three score blocks, read at an index.

  After the body, three of a grid point's output blocks, each 1 × 10 × 1024, hold what one store through the whole block
  left: the raw scores Z(k, a); the softmax over the answer tokens of the scores biased by the answers' mask, Pa(k, a);
  and the softmax over the key tokens of the scores biased by the keys' mask, stored transposed, so that entry (k, a)
  is Pk(a, k).  A store through the whole block leaves its value, and a load through a whole input block reads the
  block; what remains is the value's tree of operations over the four input blocks, read from the outside in: the
  unit axis put in front of a 10 × 1024 matrix (or of the transpose of a 1024 × 10 one), the row softmax, and inside it
  the scores and the biases, which are the specification's functions of the rows of the four blocks.
-/
import proofs.«136482_j5557687681282_2_alg».proof.Proof.KernelBase
import proofs.«136482_j5557687681282_2_alg».proof.Proof.KernelTail
import proofs.«136482_j5557687681282_2_alg».proof.Proof.Gen.KernelIdeal.Frame
import Idealize.ShloMosaic.Lib.ValueIdx
import Idealize.ShloMosaic.Lib.Pipeline.Value

noncomputable section

namespace Cert.KernelIdeal.Rows

open Idealize.ShloMosaic Idealize.ShloMosaic.ValueIdx Cert.KernelIdeal Cert.KernelIdeal.Gen Cert.Rows

/-- The zero offsets of a rank-3 block, as the constant function. -/
theorem zeros3 : (![0, 0, 0] : Fin 3 → Nat) = fun _ => 0 := funext fun a => by fin_cases a <;> rfl

variable (x0 : Vec Ideal S1x1024x768 .f32) (x1 : Vec Ideal S1x10x768 .f32)
variable (x2 : Vec Ideal S1x1x1024 .f32) (x3 : Vec Ideal S1x1x10 .f32)

/-- The block of raw scores: entry (k, a) is Z(k, a). -/
theorem out5_apply (k : Fin 10) (a : Fin 1024) :
    out0_5 (F := Ideal) x0 x1 x2 x3 (ix3 (0 : Fin 1) k a)
      = Cert.Attn.Z (rA x0) (rK x1) (rMa x2) (rMk x3) k a := by
  unfold out0_5
  rw [View.canon_unit_zero zeros3]
  simp only [View.ld_unit_zero (S := S1x1x1024) zeros3, View.ld_unit_zero (S := S1x1x10) zeros3,
    View.ld_unit_zero (S := S1x1024x768) zeros3, View.ld_unit_zero (S := S1x10x768) zeros3]
  rw [pay23_apply, pay10_apply]

/-- The block of softmaxes over the answer tokens: entry (k, a) is Pa(k, a). -/
theorem out6_apply (k : Fin 10) (a : Fin 1024) :
    out0_6 (F := Ideal) x0 x1 x2 x3 (ix3 (0 : Fin 1) k a)
      = Cert.Attn.Pa (rA x0) (rK x1) (rMa x2) (rMk x3) k a := by
  unfold out0_6
  rw [View.canon_unit_zero zeros3]
  simp only [View.ld_unit_zero (S := S1x1x1024) zeros3, View.ld_unit_zero (S := S1x1x10) zeros3,
    View.ld_unit_zero (S := S1x1024x768) zeros3, View.ld_unit_zero (S := S1x10x768) zeros3]
  rw [pay24_apply, pay16_apply]
  simp only [pay10_apply, pay4_apply]
  rfl

/-- The block of softmaxes over the key tokens, stored transposed: entry (k, a) is Pk(a, k). -/
theorem out7_apply (k : Fin 10) (a : Fin 1024) :
    out0_7 (F := Ideal) x0 x1 x2 x3 (ix3 (0 : Fin 1) k a)
      = Cert.Attn.Pk (rA x0) (rK x1) (rMa x2) (rMk x3) a k := by
  unfold out0_7
  rw [View.canon_unit_zero zeros3]
  simp only [View.ld_unit_zero (S := S1x1x1024) zeros3, View.ld_unit_zero (S := S1x1x10) zeros3,
    View.ld_unit_zero (S := S1x1024x768) zeros3, View.ld_unit_zero (S := S1x10x768) zeros3]
  rw [pay25_apply, pay14_apply]
  simp only [pay10_apply, pay5_apply]
  rfl

end Cert.KernelIdeal.Rows

end
-- ==== Proof.KernelOutB.lean ====
/-
  Three of the kernel body's output blocks, read at an index, as the specification's functions of the input rows.

  Each block is what ONE store through the whole staging buffer leaves: the stored value itself, computed from the
  four input blocks read whole.  Read at an index, the stored value unwinds through the body's values — casts,
  sigmoids, maxima, softmaxes, matrix products — each already read at an index as a function of the values before
  it; substituting those readings from the outside in, under the maxima and the sums, reaches the specification's
  own expressions over the rows of the answers, the keys and the two masks.

  The key tokens' gates are sigmoid (5 · max over the answer tokens of the biased cosine score), the answer tokens'
  gates the same over the key tokens, and the pooled vector is the maximum over the key tokens of the gated attended
  key rows followed, from position 768 on, by the maximum over the answer tokens of the gated attended answer rows.
-/
import proofs.«136482_j5557687681282_2_alg».proof.Proof.KernelBase
import proofs.«136482_j5557687681282_2_alg».proof.Proof.KernelTail
import proofs.«136482_j5557687681282_2_alg».proof.Proof.Gen.KernelIdeal.Frame
import Idealize.ShloMosaic.Lib.ValueIdx
import Idealize.ShloMosaic.Lib.Pipeline.Value

noncomputable section

namespace Cert.KernelIdeal.Rows

open Idealize.ShloMosaic Idealize.ShloMosaic.ValueIdx Cert.KernelIdeal Cert.KernelIdeal.Gen Cert.Rows

/-- The zero offsets of a rank-3 rectangle, however spelt. -/
theorem tailZero3 : (![0, 0, 0] : Fin 3 → Nat) = fun _ => 0 := funext fun a => by fin_cases a <;> rfl

variable (x0 : Vec Ideal S1x1024x768 .f32) (x1 : Vec Ideal S1x10x768 .f32)
variable (x2 : Vec Ideal S1x1x1024 .f32) (x3 : Vec Ideal S1x1x10 .f32)

/-- The key tokens' gates. -/
theorem out9_apply (k : Fin 10) : out0_9 (F := Ideal) x0 x1 x2 x3 (ix3 (0 : Fin 1) (0 : Fin 1) k)
    = Cert.Attn.betaK (rA x0) (rK x1) (rMa x2) (rMk x3) k := by
  unfold out0_9
  rw [View.canon_unit_zero tailZero3]
  simp only [View.ld_unit_zero (S := S1x1x1024) tailZero3, View.ld_unit_zero (S := S1x1x10) tailZero3,
    View.ld_unit_zero (S := S1x1024x768) tailZero3, View.ld_unit_zero (S := S1x10x768) tailZero3]
  rw [pay1_apply, pay20_apply, pay18_apply, pay19_apply]
  simp only [pay13_apply, pay10_apply, pay11_apply, pay12_apply, pay4_apply]
  rfl

/-- The answer tokens' gates. -/
theorem out8_apply (a : Fin 1024) : out0_8 (F := Ideal) x0 x1 x2 x3 (ix3 (0 : Fin 1) (0 : Fin 1) a)
    = Cert.Attn.betaA (rA x0) (rK x1) (rMa x2) (rMk x3) a := by
  unfold out0_8
  rw [View.canon_unit_zero tailZero3]
  simp only [View.ld_unit_zero (S := S1x1x1024) tailZero3, View.ld_unit_zero (S := S1x1x10) tailZero3,
    View.ld_unit_zero (S := S1x1024x768) tailZero3, View.ld_unit_zero (S := S1x10x768) tailZero3]
  rw [pay26_apply, pay21_apply]
  simp only [pay13_apply, pay10_apply, pay11_apply, pay12_apply, pay5_apply]
  rfl

/-- The pooled vector: the key side's pooled row, then from position 768 on the answer side's. -/
theorem out4_apply (j : Fin 1536) : out0_4 (F := Ideal) x0 x1 x2 x3 (ix3 (0 : Fin 1) (0 : Fin 1) j)
    = Cert.Attn.f (rA x0) (rK x1) (rMa x2) (rMk x3) j.val := by
  unfold out0_4
  rw [View.canon_unit_zero tailZero3]
  simp only [View.ld_unit_zero (S := S1x1x1024) tailZero3, View.ld_unit_zero (S := S1x1x10) tailZero3,
    View.ld_unit_zero (S := S1x1024x768) tailZero3, View.ld_unit_zero (S := S1x10x768) tailZero3]
  rw [pay22_apply]
  unfold Cert.Attn.f
  by_cases h : j.val < 768
  · rw [dif_pos h, dif_pos h]
    simp only [pay17_apply, pay16_apply, pay20_apply, pay18_apply, pay19_apply, pay13_apply, pay10_apply,
      pay11_apply, pay12_apply, pay4_apply, pay3_apply, pay8_apply]
    rfl
  · have h2 : j.val - 768 < 768 := by omega
    rw [dif_neg h, dif_neg h, dif_pos h2]
    simp only [pay15_apply, pay14_apply, pay21_apply, pay13_apply, pay10_apply, pay11_apply, pay12_apply,
      pay5_apply, pay2_apply, pay9_apply]
    rfl

end Cert.KernelIdeal.Rows
end
-- ==== Proof.LibConcat.lean ====
/-
  A concatenation of two pieces with the pieces as arguments.

  `concatenate` takes its operands as a list of (shape, contents) pairs. `concat2` is the two-piece concatenation with
  the two contents as plain arguments — the same function, so that an equation between pieces is an equation between
  concatenations by congruence — and `concat2_fold` says a two-piece `concatenate` is it.
-/
import Idealize.ShloMosaic.PureOps.ShapeOps

namespace Cert.LibConcat

open Idealize.ShloMosaic

/-- The concatenation of `a` and `b` along axis `ax` of the result shape. -/
def concat2 {α : Type} (t : Shape) (ax : Fin t.rank) {s1 s2 : Shape} (a : s1.Idx → α) (b : s2.Idx → α)
    (h : Shape.Concatenates [s1, s2] t ax) : t.Idx → α :=
  concatenate t ax [⟨s1, a⟩, ⟨s2, b⟩] h

/-- A two-piece `concatenate` is `concat2` of its pieces. -/
theorem concat2_fold {α : Type} (t : Shape) (ax : Fin t.rank) {s1 s2 : Shape} (a : s1.Idx → α) (b : s2.Idx → α)
    (h : Shape.Concatenates [s1, s2] t ax) :
    concatenate t ax [⟨s1, a⟩, ⟨s2, b⟩] h = concat2 t ax a b h := rfl

end Cert.LibConcat
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.RefBase.lean ====
/-
  The reference's masked rows, scores, biases, norms and cosine scores, read at an index.

  Each of the reference's whole-array stages, read at batch element b and token / feature coordinates, is the
  specification's function of the four rows of data of batch element b: the masked answer and key rows, the raw scores
  (a contraction over the features), the additive biases of the two masks, the two row norms and the cosine scores.
  The layout stages (broadcasts inserting or spreading a unit axis) only move coordinates; each composite of their index
  maps is identified once with the coordinate constructor it equals.
-/
import proofs.«136482_j5557687681282_2_alg».proof.Proof.Rows
import proofs.«136482_j5557687681282_2_alg».proof.Proof.RefRead
import proofs.«136482_j5557687681282_2_alg».proof.Proof.LibBcast
import proofs.«136482_j5557687681282_2_alg».proof.Proof.LibUnitAxes
import Idealize.ShloMosaic.Lib.ValueLayout
import Idealize.ShloMosaic.Lib.ValueIdx
import Idealize.ShloMosaic.PureOps.Ideal.Laws

noncomputable section

namespace Cert.ReferenceIdeal.Rows

open Idealize.ShloMosaic Idealize.ShloMosaic.ValueIdx Cert.ReferenceIdeal Cert.ReferenceIdeal.ReadP Cert.Rows

variable (x0 : (⟨S128x1024x768, .f32⟩ : BufTy).Contents (Elt Ideal)) (x1 : (⟨S128x1024, .f32⟩ : BufTy).Contents (Elt Ideal))
  (x2 : (⟨S128x10x768, .f32⟩ : BufTy).Contents (Elt Ideal)) (x3 : (⟨S128x10, .f32⟩ : BufTy).Contents (Elt Ideal))
  (b : Fin 128) (a : Fin 1024) (k : Fin 10) (e : Fin 768)

/-! ### The masked rows -/

/-- Spreading the answers' mask over the features: the mask is read at (b, a). -/
theorem idx_v12_v13 : idx_main_v12 (idx_main_v13 (ix3 b a e)) = ix2 b a :=
  funext fun c => Fin.ext (by match c with | ⟨0, _⟩ => rfl | ⟨1, _⟩ => rfl)

/-- Spreading the keys' mask over the features: the mask is read at (b, k). -/
theorem idx_v15_v16 : idx_main_v15 (idx_main_v16 (ix3 b k e)) = ix2 b k :=
  funext fun c => Fin.ext (by match c with | ⟨0, _⟩ => rfl | ⟨1, _⟩ => rfl)

theorem ref_an : val_main_v14 (F := Ideal) x0 x1 (ix3 b a e) = Cert.Attn.an (bA x0 b) (bMa x1 b) a e := by
  rw [val_main_v14_apply, val_main_v13_apply, val_main_v12_apply, idx_v12_v13]
  rfl

theorem ref_ky : val_main_v17 (F := Ideal) x2 x3 (ix3 b k e) = Cert.Attn.ky (bK x2 b) (bMk x3 b) k e := by
  rw [val_main_v17_apply, val_main_v16_apply, val_main_v15_apply, idx_v15_v16]
  rfl

/-! ### The raw scores -/

/-- The contraction's left operand at (b, k, a), feature e: the masked key row at (b, k, e). -/
theorem lidx_v18 : lidx_main_v18 (ix3 b k a) e = ix3 b k e :=
  funext fun c => Fin.ext (by match c with | ⟨0, _⟩ => rfl | ⟨1, _⟩ => rfl | ⟨2, _⟩ => rfl)

/-- The contraction's right operand at (b, k, a), feature e: the masked answer row at (b, a, e). -/
theorem ridx_v18 : ridx_main_v18 (ix3 b k a) e = ix3 b a e :=
  funext fun c => Fin.ext (by match c with | ⟨0, _⟩ => rfl | ⟨1, _⟩ => rfl | ⟨2, _⟩ => rfl)

theorem ref_Z : val_main_v18 (F := Ideal) x0 x1 x2 x3 (ix3 b k a) = Cert.Attn.Z (bA x0 b) (bK x2 b) (bMa x1 b) (bMk x3 b) k a := by
  rw [val_main_v18_apply]
  refine Finset.sum_congr rfl fun e _ => ?_
  rw [lidx_v18, ridx_v18, ref_ky, ref_an]

/-! ### The additive biases -/

/-- Inserting the unit axis of the answers' bias: it is read at (b, a). -/
theorem idx_v5 : idx_main_v5 (ix3 b (0 : Fin 1) a) = ix2 b a :=
  funext fun c => Fin.ext (by match c with | ⟨0, _⟩ => rfl | ⟨1, _⟩ => rfl)

/-- Inserting the unit axis of the keys' bias: it is read at (b, k). -/
theorem idx_v11 : idx_main_v11 (ix3 b (0 : Fin 1) k) = ix2 b k :=
  funext fun c => Fin.ext (by match c with | ⟨0, _⟩ => rfl | ⟨1, _⟩ => rfl)

theorem ref_biasA : val_main_v5 (F := Ideal) x1 (ix3 b (0 : Fin 1) a) = Cert.Attn.bias (bMa x1 b a) := by
  rw [val_main_v5_apply, idx_v5, val_main_v4_apply, val_main_v2_apply, val_main_v1_apply, val_main_v0_apply,
    val_main_cst_apply, val_main_v3_apply, val_main_cst_0_apply]
  rfl

theorem ref_biasK : val_main_v11 (F := Ideal) x3 (ix3 b (0 : Fin 1) k) = Cert.Attn.bias (bMk x3 b k) := by
  rw [val_main_v11_apply, idx_v11, val_main_v10_apply, val_main_v8_apply, val_main_v7_apply, val_main_v6_apply,
    val_main_cst_1_apply, val_main_v9_apply, val_main_cst_2_apply]
  rfl

/-! ### The row norms -/

/-- The sum of squares of answer row (b, a) runs over the features e at (b, a, e). -/
theorem idx_v20 : idx_main_v20 (ix2 b a) e = ix3 b a e :=
  funext fun c => Fin.ext (by match c with | ⟨0, _⟩ => rfl | ⟨1, _⟩ => rfl | ⟨2, _⟩ => rfl)

/-- The sum of squares of key row (b, k) runs over the features e at (b, k, e). -/
theorem idx_v25 : idx_main_v25 (ix2 b k) e = ix3 b k e :=
  funext fun c => Fin.ext (by match c with | ⟨0, _⟩ => rfl | ⟨1, _⟩ => rfl | ⟨2, _⟩ => rfl)

theorem ref_normA : val_main_v23 (F := Ideal) x0 x1 (ix2 b a) = Cert.Attn.norm (Cert.Attn.an (bA x0 b) (bMa x1 b) a) := by
  rw [val_main_v23_apply, val_main_v22_apply, val_main_v20_apply, val_main_cst_3_apply, val_main_v21_apply,
    val_main_cst_4_apply]
  have hs : (∑ e : Fin 768, val_main_v19 (F := Ideal) x0 x1 (idx_main_v20 (ix2 b a) e))
      = ∑ e : Fin 768, Cert.Attn.an (bA x0 b) (bMa x1 b) a e * Cert.Attn.an (bA x0 b) (bMa x1 b) a e :=
    Finset.sum_congr rfl fun e _ => by rw [idx_v20, val_main_v19_apply, ref_an]; rfl
  rw [hs]
  show Ideal.sqrt (max (Ideal.ofBits .f32 0x00000000#32 + _) _) = _
  rw [Ideal.ofBits_zero_f32, zero_add]
  rfl

theorem ref_normK : val_main_v28 (F := Ideal) x2 x3 (ix2 b k) = Cert.Attn.norm (Cert.Attn.ky (bK x2 b) (bMk x3 b) k) := by
  rw [val_main_v28_apply, val_main_v27_apply, val_main_v25_apply, val_main_cst_5_apply, val_main_v26_apply,
    val_main_cst_6_apply]
  have hs : (∑ e : Fin 768, val_main_v24 (F := Ideal) x2 x3 (idx_main_v25 (ix2 b k) e))
      = ∑ e : Fin 768, Cert.Attn.ky (bK x2 b) (bMk x3 b) k e * Cert.Attn.ky (bK x2 b) (bMk x3 b) k e :=
    Finset.sum_congr rfl fun e _ => by rw [idx_v25, val_main_v24_apply, ref_ky]; rfl
  rw [hs]
  show Ideal.sqrt (max (Ideal.ofBits .f32 0x00000000#32 + _) _) = _
  rw [Ideal.ofBits_zero_f32, zero_add]
  rfl

/-! ### The cosine scores -/

/-- The key norms spread over the answer tokens: read at (b, k). -/
theorem idx_v29_v31 : idx_main_v29 (idx_main_v31 (ix3 b k a)) = ix2 b k :=
  funext fun c => Fin.ext (by match c with | ⟨0, _⟩ => rfl | ⟨1, _⟩ => rfl)

/-- The answer norms spread over the key tokens: read at (b, a). -/
theorem idx_v30_v32 : idx_main_v30 (idx_main_v32 (ix3 b k a)) = ix2 b a :=
  funext fun c => Fin.ext (by match c with | ⟨0, _⟩ => rfl | ⟨1, _⟩ => rfl)

theorem ref_Zcos : val_main_v34 (F := Ideal) x0 x1 x2 x3 (ix3 b k a) = Cert.Attn.Zcos (bA x0 b) (bK x2 b) (bMa x1 b) (bMk x3 b) k a := by
  rw [val_main_v34_apply, val_main_v33_apply, val_main_v31_apply, val_main_v29_apply, idx_v29_v31,
    val_main_v32_apply, val_main_v30_apply, idx_v30_v32, ref_Z, ref_normK, ref_normA]
  rfl

end Cert.ReferenceIdeal.Rows

end
-- ==== Proof.LibHostMax.lean ====
/-
  A maximum along one axis of a rank-three array, read at an index, on the extended reals.

  A one-operand reduction whose body is the maximum, taken from a rank-zero start value over one axis of an
  a × b × c array x, is at every result index the fold of max, from the start value's only element, over the
  coordinates of that axis — in any order, because max commutes and associates.  Over the last axis, read at (p, q):
  the fold over k of x (p, q, k).  Over the middle axis, read at (p, r): the fold over k of x (p, k, r).  The index
  of the array that a result index with the coordinate k put back on the reduced axis names is (p, q, k), resp.
  (p, k, r).  All for any extents; nothing is evaluated.
-/
import Idealize.ShloMosaic.Lib.ValueIdx
import Idealize.ShloMosaic.PureOps.Reduce
import Idealize.ShloMosaic.PureOps.Ideal.Laws

noncomputable section

namespace Cert.LibHostMax

open Idealize.ShloMosaic Idealize.ShloMosaic.ValueIdx

variable {a b c : ℕ}

/-- Over (p, q), the coordinate k put on the last axis: the index (p, q, k). -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- Over (p, r), the coordinate k put on the middle axis: the index (p, k, r). -/
theorem lift_mid3 (h : (⟨3, ![a, b, c]⟩ : Shape).Reduces [1] ⟨2, ![a, c]⟩) (p : Fin a) (r : Fin c) (k : Fin b) :
    h.lift (ix2 p r) k = ix3 p k r := by
  funext d
  match d with
  | ⟨0, _⟩ => exact Fin.ext rfl
  | ⟨1, _⟩ => exact Fin.ext rfl
  | ⟨2, _⟩ => exact Fin.ext rfl

/-- The maximum along the last axis, read at (p, q): the fold of max over the entries x (p, q, k) from the start value. -/
theorem hostMax_last3 (x : (⟨3, ![a, b, c]⟩ : Shape).Idx → EReal) (init : (⟨0, ![]⟩ : Shape).Idx → EReal)
    (h' : (⟨3, ![a, b, c]⟩ : Shape).ReducesTo [2] ⟨2, ![a, b]⟩) (hu : 0 < (⟨0, ![]⟩ : Shape).numel)
    (p : Fin a) (q : Fin b) :
    Host.reduce (FloatOps.maximumf (F := Ideal) (φ := .f32)) x init h' hu (ix2 p q)
      = (Finset.univ : Finset (Fin c)).fold max (init ix0) (fun k => x (ix3 p q k)) := by
  have h : (⟨3, ![a, b, c]⟩ : Shape).Reduces [2] ⟨2, ![a, b]⟩ := ⟨h'.1, Nat.zero_lt_two, h'.2⟩
  refine (Host.reduce_eq_fold_single _ x init h' h hu (ix2 p q)).trans ?_
  rw [eq_ix0 (Shape.Idx.first hu)]
  exact Finset.fold_congr fun k _ => congrArg x (lift_last3 h p q k)

/-- The maximum along the middle axis, read at (p, r): the fold of max over the entries x (p, k, r) from the start value. -/
theorem hostMax_mid3 (x : (⟨3, ![a, b, c]⟩ : Shape).Idx → EReal) (init : (⟨0, ![]⟩ : Shape).Idx → EReal)
    (h' : (⟨3, ![a, b, c]⟩ : Shape).ReducesTo [1] ⟨2, ![a, c]⟩) (hu : 0 < (⟨0, ![]⟩ : Shape).numel)
    (p : Fin a) (r : Fin c) :
    Host.reduce (FloatOps.maximumf (F := Ideal) (φ := .f32)) x init h' hu (ix2 p r)
      = (Finset.univ : Finset (Fin b)).fold max (init ix0) (fun k => x (ix3 p k r)) := by
  have h : (⟨3, ![a, b, c]⟩ : Shape).Reduces [1] ⟨2, ![a, c]⟩ := ⟨h'.1, Nat.zero_lt_two, h'.2⟩
  refine (Host.reduce_eq_fold_single _ x init h' h hu (ix2 p r)).trans ?_
  rw [eq_ix0 (Shape.Idx.first hu)]
  exact Finset.fold_congr fun k _ => congrArg x (lift_mid3 h p r k)

end Cert.LibHostMax

end
-- ==== Proof.RefSoft.lean ====
/-
  The reference's two softmaxes, read at an index.

  The biased scores of batch element b are softmaxed twice: over the key tokens for each answer token (on the transposed
  scores) and over the answer tokens for each key token.  Each softmax is printed as: the maximum along the last axis from
  −∞, joined once more with −∞; the difference, exponentiated; the sum along the last axis; the quotient.  Read at an index,
  these are the specification's row maximum, and its row softmax of the row of biased scores.  The first softmax is also
  read through the final transpose that puts the key tokens first again.
-/
import proofs.«136482_j5557687681282_2_alg».proof.Proof.RefBase
import proofs.«136482_j5557687681282_2_alg».proof.Proof.LibHostMax

noncomputable section

namespace Cert.ReferenceIdeal.Rows

open Idealize.ShloMosaic Idealize.ShloMosaic.ValueIdx Cert.ReferenceIdeal Cert.ReferenceIdeal.ReadP Cert.Rows

variable (x0 : (⟨S128x1024x768, .f32⟩ : BufTy).Contents (Elt Ideal)) (x1 : (⟨S128x1024, .f32⟩ : BufTy).Contents (Elt Ideal))
  (x2 : (⟨S128x10x768, .f32⟩ : BufTy).Contents (Elt Ideal)) (x3 : (⟨S128x10, .f32⟩ : BufTy).Contents (Elt Ideal))
  (b : Fin 128) (a : Fin 1024) (k : Fin 10)

/-- The biased scores of answer token a against the key tokens: the row the first softmax runs over. -/
abbrev rowOverKeys : Fin 10 → EReal := fun k' =>
  Cert.Attn.Z (bA x0 b) (bK x2 b) (bMa x1 b) (bMk x3 b) k' a + Cert.Attn.bias (bMk x3 b k')

/-- The biased scores of key token k against the answer tokens: the row the second softmax runs over. -/
abbrev rowOverAnswers : Fin 1024 → EReal := fun a' =>
  Cert.Attn.Z (bA x0 b) (bK x2 b) (bMa x1 b) (bMk x3 b) k a' + Cert.Attn.bias (bMa x1 b a')

/-! ### The softmax over the key tokens -/

/-- The transposed scores at (b, a, k) are the scores at (b, k, a). -/
theorem idx_v35 : idx_main_v35 (ix3 b a k) = ix3 b k a :=
  funext fun c => Fin.ext (by match c with | ⟨0, _⟩ => rfl | ⟨1, _⟩ => rfl | ⟨2, _⟩ => rfl)

/-- The keys' bias spread over the answer tokens: read at (b, 0, k). -/
theorem idx_v36 : idx_main_v36 (ix3 b a k) = ix3 b (0 : Fin 1) k :=
  funext fun c => Fin.ext (by match c with | ⟨0, _⟩ => rfl | ⟨1, _⟩ => rfl | ⟨2, _⟩ => rfl)

/-- The biased, transposed scores. -/
theorem ref_v37 : val_main_v37 (F := Ideal) x0 x1 x2 x3 (ix3 b a k) = rowOverKeys x0 x1 x2 x3 b a k := by
  rw [val_main_v37_apply, val_main_v35_apply, idx_v35, ref_Z, val_main_v36_apply, idx_v36, ref_biasK]
  rfl

/-- Their maximum over the key tokens, from −∞. -/
theorem ref_v38 : val_main_v38 (F := Ideal) x0 x1 x2 x3 (ix2 b a) = Cert.Attn.foldMax (rowOverKeys x0 x1 x2 x3 b a) := by
  unfold val_main_v38
  refine (Cert.LibHostMax.hostMax_last3 _ _ _ _ b a).trans ?_
  show (Finset.univ : Finset (Fin 10)).fold max Cert.Attn.cNegInf _ = (Finset.univ : Finset (Fin 10)).fold max Cert.Attn.cNegInf _
  exact Finset.fold_congr fun k' _ => ref_v37 x0 x1 x2 x3 b a k'

/-- Joined once more with −∞: the row maximum the softmax subtracts. -/
theorem ref_v40 : val_main_v40 (F := Ideal) x0 x1 x2 x3 (ix2 b a) = Cert.Attn.rowMax (rowOverKeys x0 x1 x2 x3 b a) := by
  rw [val_main_v40_apply, ref_v38, val_main_v39_apply, val_main_cst_8_apply]
  rfl

/-- The row maximum spread over the key tokens: read at (b, a). -/
theorem idx_v41_v42 : idx_main_v41 (idx_main_v42 (ix3 b a k)) = ix2 b a :=
  funext fun c => Fin.ext (by match c with | ⟨0, _⟩ => rfl | ⟨1, _⟩ => rfl)

/-- The exponentials of the differences. -/
theorem ref_v44 : val_main_v44 (F := Ideal) x0 x1 x2 x3 (ix3 b a k)
    = Ideal.exp (rowOverKeys x0 x1 x2 x3 b a k - Cert.Attn.rowMax (rowOverKeys x0 x1 x2 x3 b a)) := by
  rw [val_main_v44_apply, val_main_v43_apply, ref_v37, val_main_v42_apply, val_main_v41_apply, idx_v41_v42, ref_v40]
  rfl

/-- The sum of the exponentials of row (b, a) runs over the key tokens k at (b, a, k). -/
theorem idx_v45 : idx_main_v45 (ix2 b a) k = ix3 b a k :=
  funext fun c => Fin.ext (by match c with | ⟨0, _⟩ => rfl | ⟨1, _⟩ => rfl | ⟨2, _⟩ => rfl)

/-- The sum of the exponentials. -/
theorem ref_v45 : val_main_v45 (F := Ideal) x0 x1 x2 x3 (ix2 b a)
    = ∑ k' : Fin 10, Ideal.exp (rowOverKeys x0 x1 x2 x3 b a k' - Cert.Attn.rowMax (rowOverKeys x0 x1 x2 x3 b a)) := by
  rw [val_main_v45_apply, val_main_cst_9_apply]
  show Ideal.ofBits .f32 0x00000000#32 + _ = _
  rw [Ideal.ofBits_zero_f32, zero_add]
  exact Finset.sum_congr rfl fun k' _ => by rw [idx_v45, ref_v44]

/-- The sum spread over the key tokens: read at (b, a). -/
theorem idx_v46_v47 : idx_main_v46 (idx_main_v47 (ix3 b a k)) = ix2 b a :=
  funext fun c => Fin.ext (by match c with | ⟨0, _⟩ => rfl | ⟨1, _⟩ => rfl)

theorem ref_Pk : val_main_v48 (F := Ideal) x0 x1 x2 x3 (ix3 b a k) = Cert.Attn.Pk (bA x0 b) (bK x2 b) (bMa x1 b) (bMk x3 b) a k := by
  rw [val_main_v48_apply, ref_v44, val_main_v47_apply, val_main_v46_apply, idx_v46_v47, ref_v45]
  rfl

/-- The first softmax with the key tokens first again. -/
theorem idx_v102 : idx_main_v102 (ix3 b k a) = ix3 b a k :=
  funext fun c => Fin.ext (by match c with | ⟨0, _⟩ => rfl | ⟨1, _⟩ => rfl | ⟨2, _⟩ => rfl)

theorem ref_PkT : val_main_v102 (F := Ideal) x0 x1 x2 x3 (ix3 b k a) = Cert.Attn.Pk (bA x0 b) (bK x2 b) (bMa x1 b) (bMk x3 b) a k := by
  rw [val_main_v102_apply, idx_v102, ref_Pk]

/-! ### The softmax over the answer tokens -/

/-- The answers' bias spread over the key tokens: read at (b, 0, a). -/
theorem idx_v53 : idx_main_v53 (ix3 b k a) = ix3 b (0 : Fin 1) a :=
  funext fun c => Fin.ext (by match c with | ⟨0, _⟩ => rfl | ⟨1, _⟩ => rfl | ⟨2, _⟩ => rfl)

/-- The biased scores. -/
theorem ref_v54 : val_main_v54 (F := Ideal) x0 x1 x2 x3 (ix3 b k a) = rowOverAnswers x0 x1 x2 x3 b k a := by
  rw [val_main_v54_apply, ref_Z, val_main_v53_apply, idx_v53, ref_biasA]
  rfl

/-- Their maximum over the answer tokens, from −∞. -/
theorem ref_v55 : val_main_v55 (F := Ideal) x0 x1 x2 x3 (ix2 b k) = Cert.Attn.foldMax (rowOverAnswers x0 x1 x2 x3 b k) := by
  unfold val_main_v55
  refine (Cert.LibHostMax.hostMax_last3 _ _ _ _ b k).trans ?_
  show (Finset.univ : Finset (Fin 1024)).fold max Cert.Attn.cNegInf _ = (Finset.univ : Finset (Fin 1024)).fold max Cert.Attn.cNegInf _
  exact Finset.fold_congr fun a' _ => ref_v54 x0 x1 x2 x3 b a' k

/-- Joined once more with −∞: the row maximum the softmax subtracts. -/
theorem ref_v57 : val_main_v57 (F := Ideal) x0 x1 x2 x3 (ix2 b k) = Cert.Attn.rowMax (rowOverAnswers x0 x1 x2 x3 b k) := by
  rw [val_main_v57_apply, ref_v55, val_main_v56_apply, val_main_cst_11_apply]
  rfl

/-- The row maximum spread over the answer tokens: read at (b, k). -/
theorem idx_v58_v59 : idx_main_v58 (idx_main_v59 (ix3 b k a)) = ix2 b k :=
  funext fun c => Fin.ext (by match c with | ⟨0, _⟩ => rfl | ⟨1, _⟩ => rfl)

/-- The exponentials of the differences. -/
theorem ref_v61 : val_main_v61 (F := Ideal) x0 x1 x2 x3 (ix3 b k a)
    = Ideal.exp (rowOverAnswers x0 x1 x2 x3 b k a - Cert.Attn.rowMax (rowOverAnswers x0 x1 x2 x3 b k)) := by
  rw [val_main_v61_apply, val_main_v60_apply, ref_v54, val_main_v59_apply, val_main_v58_apply, idx_v58_v59, ref_v57]
  rfl

/-- The sum of the exponentials of row (b, k) runs over the answer tokens a at (b, k, a). -/
theorem idx_v62 : idx_main_v62 (ix2 b k) a = ix3 b k a :=
  funext fun c => Fin.ext (by match c with | ⟨0, _⟩ => rfl | ⟨1, _⟩ => rfl | ⟨2, _⟩ => rfl)

/-- The sum of the exponentials. -/
theorem ref_v62 : val_main_v62 (F := Ideal) x0 x1 x2 x3 (ix2 b k)
    = ∑ a' : Fin 1024, Ideal.exp (rowOverAnswers x0 x1 x2 x3 b k a' - Cert.Attn.rowMax (rowOverAnswers x0 x1 x2 x3 b k)) := by
  rw [val_main_v62_apply, val_main_cst_12_apply]
  show Ideal.ofBits .f32 0x00000000#32 + _ = _
  rw [Ideal.ofBits_zero_f32, zero_add]
  exact Finset.sum_congr rfl fun a' _ => by rw [idx_v62, ref_v61]

/-- The sum spread over the answer tokens: read at (b, k). -/
theorem idx_v63_v64 : idx_main_v63 (idx_main_v64 (ix3 b k a)) = ix2 b k :=
  funext fun c => Fin.ext (by match c with | ⟨0, _⟩ => rfl | ⟨1, _⟩ => rfl)

theorem ref_Pa : val_main_v65 (F := Ideal) x0 x1 x2 x3 (ix3 b k a) = Cert.Attn.Pa (bA x0 b) (bK x2 b) (bMa x1 b) (bMk x3 b) k a := by
  rw [val_main_v65_apply, ref_v61, val_main_v64_apply, val_main_v63_apply, idx_v63_v64, ref_v62]
  rfl

end Cert.ReferenceIdeal.Rows

end
-- ==== Proof.LibCols.lean ====
/-
  Two matrices set side by side, read at an index.

  For an a × b₁ matrix x₁ and an a × b₂ matrix x₂ concatenated along the column axis into an a × b matrix, the entry
  at (r, j) with j < b₁ is x₁(r, j), and the entry at (r, b₁ + q) is x₂(r, q) — generic in the four extents.
-/
import Idealize.ShloMosaic.Lib.Pipeline.Value
import Idealize.ShloMosaic.Lib.ValueIdx

namespace Cert.LibCols

open Idealize.ShloMosaic Idealize.ShloMosaic.ValueIdx

variable {α : Type} {a b₁ b₂ b : Nat}

/-- A column in the first piece's range reads the first piece at the same coordinates. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₁)
    (hq : q.val = j.val) :
    concatenate ⟨2, ![a, b]⟩ 1 [⟨⟨2, ![a, b₁]⟩, x₁⟩, ⟨⟨2, ![a, b₂]⟩, x₂⟩] h (ix2 r j) = x₁ (ix2 r q) :=
  concatenate_pair_apply_left 1 x₁ x₂ h (ix2 r j) rfl (ix2 r q) fun c => match c with
    | ⟨0, _⟩ => rfl
    | ⟨1, _⟩ => hq

/-- A column past the first piece's range reads the second piece, the first piece's width less. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₂)
    (hq : q.val + b₁ = j.val) :
    concatenate ⟨2, ![a, b]⟩ 1 [⟨⟨2, ![a, b₁]⟩, x₁⟩, ⟨⟨2, ![a, b₂]⟩, x₂⟩] h (ix2 r j) = x₂ (ix2 r q) :=
  concatenate_pair_apply_right 1 x₁ x₂ h (ix2 r j) rfl rfl (ix2 r q)
    (fun c hc => match c, hc with
      | ⟨0, _⟩, _ => rfl
      | ⟨1, _⟩, hc => absurd rfl hc)
    hq

end Cert.LibCols
-- ==== Proof.RefGate.lean ====
/-
  The reference's gates, gated rows, their pooling and the final joining, read at an index.

  For batch element b.  The gate of key token k is 1 / (1 + exp (−(5 · m))) with m the maximum over the answer tokens a
  of the cosine score of (k, a) plus the answer token's bias — the sigmoid of five times that maximum; the gate of answer
  token a is the same with the maximum over the key tokens of the cosine score plus the key token's bias.  The attended
  row of key token k is Σ_a softmax(k, a) · answer row(a), masked by the key's mask value and multiplied by the key's
  gate; the attended row of answer token a likewise with the roles exchanged.  The pooled vectors are the maxima of the
  gated rows over the tokens, and the result lays the two pooled vectors end to end.  Each statement takes what the
  earlier stages compute as hypotheses and reads the later stage from them.
-/
import proofs.«136482_j5557687681282_2_alg».proof.Proof.Spec
import proofs.«136482_j5557687681282_2_alg».proof.Proof.RefRead
import proofs.«136482_j5557687681282_2_alg».proof.Proof.LibHostMax
import proofs.«136482_j5557687681282_2_alg».proof.Proof.LibBcast
import proofs.«136482_j5557687681282_2_alg».proof.Proof.LibCols
import proofs.«136482_j5557687681282_2_alg».proof.Proof.LibUnitAxes
import Idealize.ShloMosaic.Lib.IdealHost
import Idealize.ShloMosaic.Lib.ValueIdx
import Idealize.ShloMosaic.PureOps.Ideal.Laws

noncomputable section

namespace Cert.ReferenceIdeal.Gate

open Idealize.ShloMosaic Idealize.ShloMosaic.ValueIdx Cert.ReferenceIdeal Cert.ReferenceIdeal.ReadP

variable (x0 : (⟨S128x1024x768, .f32⟩ : BufTy).Contents (Elt Ideal)) (x1 : (⟨S128x1024, .f32⟩ : BufTy).Contents (Elt Ideal))
  (x2 : (⟨S128x10x768, .f32⟩ : BufTy).Contents (Elt Ideal)) (x3 : (⟨S128x10, .f32⟩ : BufTy).Contents (Elt Ideal))
  (b : Fin 128) (a : Fin 1024) (k : Fin 10) (e : Fin 768) (j : Fin 1536)

/-! ### The composed index functions at literal coordinates -/

/-- The answers' bias laid over the keys reads the bias row at the answer's position. -/
theorem idx70 : idx_main_v70 (ix3 b k a) = ix3 b (0 : Fin 1) a :=
  funext fun c => Fin.ext (by match c with | ⟨0, _⟩ => rfl | ⟨1, _⟩ => rfl | ⟨2, _⟩ => rfl)

/-- The transposed cosine scores at (a, k) are the cosine scores at (k, a). -/
theorem idx82 : idx_main_v82 (ix3 b a k) = ix3 b k a :=
  funext fun c => Fin.ext (by match c with | ⟨0, _⟩ => rfl | ⟨1, _⟩ => rfl | ⟨2, _⟩ => rfl)

/-- The keys' bias laid over the answers reads the bias row at the key's position. -/
theorem idx83 : idx_main_v83 (ix3 b a k) = ix3 b (0 : Fin 1) k :=
  funext fun c => Fin.ext (by match c with | ⟨0, _⟩ => rfl | ⟨1, _⟩ => rfl | ⟨2, _⟩ => rfl)

/-! ### The two maxima under the gates -/

/-- The best biased cosine score of key token k, over the answer tokens. -/
theorem v72_apply : val_main_v72 (F := Ideal) x0 x1 x2 x3 (ix2 b k)
    = Cert.Attn.foldMax (fun a => val_main_v34 (F := Ideal) x0 x1 x2 x3 (ix3 b k a)
        + val_main_v5 (F := Ideal) x1 (ix3 b (0 : Fin 1) a)) := by
  unfold val_main_v72
  refine (Cert.LibHostMax.hostMax_last3 _ _ _ _ b k).trans ?_
  unfold Cert.Attn.foldMax
  refine Finset.fold_congr fun a _ => ?_
  rw [val_main_v71_apply, val_main_v70_apply, idx70]
  rfl

/-- The best biased cosine score of answer token a, over the key tokens. -/
theorem v85_apply : val_main_v85 (F := Ideal) x0 x1 x2 x3 (ix2 b a)
    = Cert.Attn.foldMax (fun k => val_main_v34 (F := Ideal) x0 x1 x2 x3 (ix3 b k a)
        + val_main_v11 (F := Ideal) x3 (ix3 b (0 : Fin 1) k)) := by
  unfold val_main_v85
  refine (Cert.LibHostMax.hostMax_last3 _ _ _ _ b a).trans ?_
  unfold Cert.Attn.foldMax
  refine Finset.fold_congr fun k _ => ?_
  rw [val_main_v84_apply, val_main_v82_apply, val_main_v83_apply, idx82, idx83]
  rfl

/-! ### The gates -/

/-- The gate of key token k: the sigmoid of five times its best biased cosine score. -/
theorem ref_gateK_of (Zc : Fin 10 → Fin 1024 → EReal) (bsA : Fin 1024 → EReal)
    (hZc : ∀ k a, val_main_v34 (F := Ideal) x0 x1 x2 x3 (ix3 b k a) = Zc k a)
    (hbA : ∀ a, val_main_v5 (F := Ideal) x1 (ix3 b (0 : Fin 1) a) = bsA a) :
    val_main_v80 (F := Ideal) x0 x1 x2 x3 (ix2 b k) = Cert.Attn.gate (fun a => Zc k a + bsA a) := by
  have hm : val_main_v72 (F := Ideal) x0 x1 x2 x3 (ix2 b k) = Cert.Attn.foldMax (fun a => Zc k a + bsA a) := by
    rw [v72_apply]
    exact congrArg Cert.Attn.foldMax (funext fun a => by rw [hZc, hbA])
  rw [val_main_v80_apply, val_main_v79_apply, val_main_cst_16_apply, val_main_v78_apply, val_main_v77_apply,
    val_main_cst_15_apply, val_main_v76_apply, val_main_v75_apply, val_main_v74_apply, val_main_v73_apply,
    val_main_cst_14_apply, hm]
  show Ideal.div (Ideal.ofBits .f32 0x3F800000#32) (Ideal.ofBits .f32 0x3F800000#32
    + Ideal.exp (-(Cert.Attn.foldMax (fun a => Zc k a + bsA a) * Cert.Attn.cFive))) = _
  rw [Ideal.ofBits_one_f32]
  rfl

/-- The gate of answer token a: the sigmoid of five times its best biased cosine score. -/
theorem ref_gateA_of (Zc : Fin 10 → Fin 1024 → EReal) (bsK : Fin 10 → EReal)
    (hZc : ∀ k a, val_main_v34 (F := Ideal) x0 x1 x2 x3 (ix3 b k a) = Zc k a)
    (hbK : ∀ k, val_main_v11 (F := Ideal) x3 (ix3 b (0 : Fin 1) k) = bsK k) :
    val_main_v93 (F := Ideal) x0 x1 x2 x3 (ix2 b a) = Cert.Attn.gate (fun k => Zc k a + bsK k) := by
  have hm : val_main_v85 (F := Ideal) x0 x1 x2 x3 (ix2 b a) = Cert.Attn.foldMax (fun k => Zc k a + bsK k) := by
    rw [v85_apply]
    exact congrArg Cert.Attn.foldMax (funext fun k => by rw [hZc, hbK])
  rw [val_main_v93_apply, val_main_v92_apply, val_main_cst_20_apply, val_main_v91_apply, val_main_v90_apply,
    val_main_cst_19_apply, val_main_v89_apply, val_main_v88_apply, val_main_v87_apply, val_main_v86_apply,
    val_main_cst_18_apply, hm]
  show Ideal.div (Ideal.ofBits .f32 0x3F800000#32) (Ideal.ofBits .f32 0x3F800000#32
    + Ideal.exp (-(Cert.Attn.foldMax (fun k => Zc k a + bsK k) * Cert.Attn.cFive))) = _
  rw [Ideal.ofBits_one_f32]
  rfl

/-! ### The gates as the program returns them -/

/-- The returned key gates, a 1 × 10 row per batch element, are the key gates. -/
theorem ref_out5 : val_main_v104 (F := Ideal) x0 x1 x2 x3 (ix3 b (0 : Fin 1) k)
    = val_main_v80 (F := Ideal) x0 x1 x2 x3 (ix2 b k) := by
  rw [val_main_v104_apply, val_main_v81_apply]
  exact congrArg (val_main_v80 (F := Ideal) x0 x1 x2 x3)
    (funext fun c => Fin.ext (by match c with | ⟨0, _⟩ => rfl | ⟨1, _⟩ => rfl))

/-- The returned answer gates, a 1 × 1024 row per batch element, are the answer gates. -/
theorem ref_out4 : val_main_v103 (F := Ideal) x0 x1 x2 x3 (ix3 b (0 : Fin 1) a)
    = val_main_v93 (F := Ideal) x0 x1 x2 x3 (ix2 b a) := by
  rw [val_main_v103_apply, val_main_v94_apply]
  exact congrArg (val_main_v93 (F := Ideal) x0 x1 x2 x3)
    (funext fun c => Fin.ext (by match c with | ⟨0, _⟩ => rfl | ⟨1, _⟩ => rfl))

/-! ### The gated attended rows -/

theorem lidx66 : lidx_main_v66 (ix3 b k e) a = ix3 b k a :=
  funext fun c => Fin.ext (by match c with | ⟨0, _⟩ => rfl | ⟨1, _⟩ => rfl | ⟨2, _⟩ => rfl)

theorem ridx66 : ridx_main_v66 (ix3 b k e) a = ix3 b a e :=
  funext fun c => Fin.ext (by match c with | ⟨0, _⟩ => rfl | ⟨1, _⟩ => rfl | ⟨2, _⟩ => rfl)

theorem lidx49 : lidx_main_v49 (ix3 b a e) k = ix3 b a k :=
  funext fun c => Fin.ext (by match c with | ⟨0, _⟩ => rfl | ⟨1, _⟩ => rfl | ⟨2, _⟩ => rfl)

theorem ridx49 : ridx_main_v49 (ix3 b a e) k = ix3 b k e :=
  funext fun c => Fin.ext (by match c with | ⟨0, _⟩ => rfl | ⟨1, _⟩ => rfl | ⟨2, _⟩ => rfl)

/-- The key's mask value, laid along the features. -/
theorem idx67_68 : idx_main_v67 (idx_main_v68 (ix3 b k e)) = ix2 b k :=
  funext fun c => Fin.ext (by match c with | ⟨0, _⟩ => rfl | ⟨1, _⟩ => rfl)

/-- The key's gate, laid along the features. -/
theorem idx81_95 : idx_main_v81 (idx_main_v95 (ix3 b k e)) = ix2 b k :=
  funext fun c => Fin.ext (by match c with | ⟨0, _⟩ => rfl | ⟨1, _⟩ => rfl)

/-- The answer's mask value, laid along the features. -/
theorem idx50_51 : idx_main_v50 (idx_main_v51 (ix3 b a e)) = ix2 b a :=
  funext fun c => Fin.ext (by match c with | ⟨0, _⟩ => rfl | ⟨1, _⟩ => rfl)

/-- The answer's gate, laid along the features. -/
theorem idx94_97 : idx_main_v94 (idx_main_v97 (ix3 b a e)) = ix2 b a :=
  funext fun c => Fin.ext (by match c with | ⟨0, _⟩ => rfl | ⟨1, _⟩ => rfl)

/-- The gated attended row of key token k: Σ_a softmax(k, a) · answer row(a), masked, times the key's gate. -/
theorem ref_U_of (Pa' : Fin 10 → Fin 1024 → EReal) (an' : Fin 1024 → Fin 768 → EReal)
    (hPa : ∀ k a, val_main_v65 (F := Ideal) x0 x1 x2 x3 (ix3 b k a) = Pa' k a)
    (han : ∀ a e, val_main_v14 (F := Ideal) x0 x1 (ix3 b a e) = an' a e) :
    val_main_v96 (F := Ideal) x0 x1 x2 x3 (ix3 b k e)
      = ((∑ a : Fin 1024, Pa' k a * an' a e) * x3 (ix2 b k)) * val_main_v80 (F := Ideal) x0 x1 x2 x3 (ix2 b k) := by
  rw [val_main_v96_apply, val_main_v69_apply, val_main_v66_apply, val_main_v68_apply, val_main_v67_apply,
    val_main_v95_apply, val_main_v81_apply, idx67_68, idx81_95]
  refine congrArg (fun s => (s * x3 (ix2 b k)) * val_main_v80 (F := Ideal) x0 x1 x2 x3 (ix2 b k))
    (Finset.sum_congr rfl fun a _ => ?_)
  rw [lidx66, ridx66, hPa, han]

/-- The gated attended row of answer token a: Σ_k softmax(a, k) · key row(k), masked, times the answer's gate. -/
theorem ref_V_of (Pk' : Fin 1024 → Fin 10 → EReal) (ky' : Fin 10 → Fin 768 → EReal)
    (hPk : ∀ a k, val_main_v48 (F := Ideal) x0 x1 x2 x3 (ix3 b a k) = Pk' a k)
    (hky : ∀ k e, val_main_v17 (F := Ideal) x2 x3 (ix3 b k e) = ky' k e) :
    val_main_v98 (F := Ideal) x0 x1 x2 x3 (ix3 b a e)
      = ((∑ k : Fin 10, Pk' a k * ky' k e) * x1 (ix2 b a)) * val_main_v93 (F := Ideal) x0 x1 x2 x3 (ix2 b a) := by
  rw [val_main_v98_apply, val_main_v52_apply, val_main_v49_apply, val_main_v51_apply, val_main_v50_apply,
    val_main_v97_apply, val_main_v94_apply, idx50_51, idx94_97]
  refine congrArg (fun s => (s * x1 (ix2 b a)) * val_main_v93 (F := Ideal) x0 x1 x2 x3 (ix2 b a))
    (Finset.sum_congr rfl fun k _ => ?_)
  rw [lidx49, ridx49, hPk, hky]

/-! ### The pooling and the joining -/

/-- The pooled key side at feature e: the maximum over the key tokens of their gated attended rows. -/
theorem v99_apply : val_main_v99 (F := Ideal) x0 x1 x2 x3 (ix2 b e)
    = Cert.Attn.foldMax (fun k : Fin 10 => val_main_v96 (F := Ideal) x0 x1 x2 x3 (ix3 b k e)) := by
  unfold val_main_v99
  exact Cert.LibHostMax.hostMax_mid3 _ _ _ _ b e

/-- The pooled answer side at feature e: the maximum over the answer tokens of their gated attended rows. -/
theorem v100_apply : val_main_v100 (F := Ideal) x0 x1 x2 x3 (ix2 b e)
    = Cert.Attn.foldMax (fun a : Fin 1024 => val_main_v98 (F := Ideal) x0 x1 x2 x3 (ix3 b a e)) := by
  unfold val_main_v100
  exact Cert.LibHostMax.hostMax_mid3 _ _ _ _ b e

/-- The result at position j: the pooled key side for j < 768, the pooled answer side at j − 768 past it. -/
theorem ref_f_of (Uf : Fin 10 → Fin 768 → EReal) (Vf : Fin 1024 → Fin 768 → EReal)
    (hU : ∀ k e, val_main_v96 (F := Ideal) x0 x1 x2 x3 (ix3 b k e) = Uf k e)
    (hV : ∀ a e, val_main_v98 (F := Ideal) x0 x1 x2 x3 (ix3 b a e) = Vf a e) :
    val_main_v101 (F := Ideal) x0 x1 x2 x3 (ix2 b j)
      = if h : j.val < 768 then Cert.Attn.foldMax (fun k : Fin 10 => Uf k ⟨j.val, h⟩)
        else Cert.Attn.foldMax (fun a : Fin 1024 => Vf a ⟨j.val - 768, by omega⟩) := by
  unfold val_main_v101
  by_cases h : j.val < 768
  · rw [dif_pos h]
    refine (Cert.LibCols.concat_cols_left _ _ _ b j ⟨j.val, h⟩ rfl).trans ?_
    rw [v99_apply]
    exact congrArg Cert.Attn.foldMax (funext fun k => hU k _)
  · rw [dif_neg h]
    refine (Cert.LibCols.concat_cols_right _ _ _ b j ⟨j.val - 768, by omega⟩ (by show j.val - 768 + 768 = j.val; omega)).trans ?_
    rw [v100_apply]
    exact congrArg Cert.Attn.foldMax (funext fun a => hV a _)

end Cert.ReferenceIdeal.Gate

end
-- ==== Proof.RefOut.lean ====
/-
  The reference's six results as whole arrays.

  Each result of the reference, read at any index, is the specification's function of the rows of data of the batch
  element the index's first coordinate names: an index is split into its coordinates, and the stage's value there is the
  one already identified coordinate by coordinate.  So each result is, as a whole array, the corresponding array of the
  specification.
-/
import proofs.«136482_j5557687681282_2_alg».proof.Proof.Whole
import proofs.«136482_j5557687681282_2_alg».proof.Proof.RefSoft
import proofs.«136482_j5557687681282_2_alg».proof.Proof.RefGate

noncomputable section

namespace Cert.ReferenceIdeal.Out

open Idealize.ShloMosaic Idealize.ShloMosaic.ValueIdx Cert.ReferenceIdeal Cert.ReferenceIdeal.ReadP Cert.Rows Cert.Whole
open Cert.ReferenceIdeal.Rows

variable (x0 : (⟨S128x1024x768, .f32⟩ : BufTy).Contents (Elt Ideal)) (x1 : (⟨S128x1024, .f32⟩ : BufTy).Contents (Elt Ideal))
  (x2 : (⟨S128x10x768, .f32⟩ : BufTy).Contents (Elt Ideal)) (x3 : (⟨S128x10, .f32⟩ : BufTy).Contents (Elt Ideal))

/-- The raw scores. -/
theorem out1 : val_main_v18 (F := Ideal) x0 x1 x2 x3 = GZ x0 x1 x2 x3 := by
  funext i
  obtain ⟨b, k, a, rfl⟩ : ∃ (b : Fin 128) (k : Fin 10) (a : Fin 1024), i = ix3 b k a := ⟨i 0, i 1, i 2, eq_ix3 i⟩
  exact (ref_Z x0 x1 x2 x3 b a k).trans (GZ_ix x0 x1 x2 x3 b k a).symm

/-- The softmax over the answer tokens. -/
theorem out2 : val_main_v65 (F := Ideal) x0 x1 x2 x3 = GPa x0 x1 x2 x3 := by
  funext i
  obtain ⟨b, k, a, rfl⟩ : ∃ (b : Fin 128) (k : Fin 10) (a : Fin 1024), i = ix3 b k a := ⟨i 0, i 1, i 2, eq_ix3 i⟩
  exact (ref_Pa x0 x1 x2 x3 b a k).trans (GPa_ix x0 x1 x2 x3 b k a).symm

/-- The softmax over the key tokens, with the key tokens first. -/
theorem out3 : val_main_v102 (F := Ideal) x0 x1 x2 x3 = GPkT x0 x1 x2 x3 := by
  funext i
  obtain ⟨b, k, a, rfl⟩ : ∃ (b : Fin 128) (k : Fin 10) (a : Fin 1024), i = ix3 b k a := ⟨i 0, i 1, i 2, eq_ix3 i⟩
  exact (ref_PkT x0 x1 x2 x3 b a k).trans (GPkT_ix x0 x1 x2 x3 b k a).symm

/-! ### The gates, the gated rows and the pooled vectors of batch element b -/

section coordinates

variable (b : Fin 128) (a : Fin 1024) (k : Fin 10) (e : Fin 768) (j : Fin 1536)

/-- The gate of key token k. -/
theorem ref_betaK : val_main_v80 (F := Ideal) x0 x1 x2 x3 (ix2 b k)
    = Cert.Attn.betaK (bA x0 b) (bK x2 b) (bMa x1 b) (bMk x3 b) k :=
  Cert.ReferenceIdeal.Gate.ref_gateK_of x0 x1 x2 x3 b k
    (Cert.Attn.Zcos (bA x0 b) (bK x2 b) (bMa x1 b) (bMk x3 b)) (fun a' => Cert.Attn.bias (bMa x1 b a'))
    (fun k' a' => ref_Zcos x0 x1 x2 x3 b a' k') (fun a' => ref_biasA x1 b a')

/-- The gate of answer token a. -/
theorem ref_betaA : val_main_v93 (F := Ideal) x0 x1 x2 x3 (ix2 b a)
    = Cert.Attn.betaA (bA x0 b) (bK x2 b) (bMa x1 b) (bMk x3 b) a :=
  Cert.ReferenceIdeal.Gate.ref_gateA_of x0 x1 x2 x3 b a
    (Cert.Attn.Zcos (bA x0 b) (bK x2 b) (bMa x1 b) (bMk x3 b)) (fun k' => Cert.Attn.bias (bMk x3 b k'))
    (fun k' a' => ref_Zcos x0 x1 x2 x3 b a' k') (fun k' => ref_biasK x3 b k')

/-- The attended row of key token k, masked and gated. -/
theorem ref_U : val_main_v96 (F := Ideal) x0 x1 x2 x3 (ix3 b k e)
    = Cert.Attn.U (bA x0 b) (bK x2 b) (bMa x1 b) (bMk x3 b) k e := by
  refine (Cert.ReferenceIdeal.Gate.ref_U_of x0 x1 x2 x3 b k e
    (Cert.Attn.Pa (bA x0 b) (bK x2 b) (bMa x1 b) (bMk x3 b)) (Cert.Attn.an (bA x0 b) (bMa x1 b))
    (fun k' a' => ref_Pa x0 x1 x2 x3 b a' k') (fun a' e' => ref_an x0 x1 b a' e')).trans ?_
  rw [ref_betaK]
  rfl

/-- The attended row of answer token a, masked and gated. -/
theorem ref_V : val_main_v98 (F := Ideal) x0 x1 x2 x3 (ix3 b a e)
    = Cert.Attn.V (bA x0 b) (bK x2 b) (bMa x1 b) (bMk x3 b) a e := by
  refine (Cert.ReferenceIdeal.Gate.ref_V_of x0 x1 x2 x3 b a e
    (Cert.Attn.Pk (bA x0 b) (bK x2 b) (bMa x1 b) (bMk x3 b)) (Cert.Attn.ky (bK x2 b) (bMk x3 b))
    (fun a' k' => ref_Pk x0 x1 x2 x3 b a' k') (fun k' e' => ref_ky x2 x3 b k' e')).trans ?_
  rw [ref_betaA]
  rfl

/-- The two pooled vectors end to end. -/
theorem ref_f : val_main_v101 (F := Ideal) x0 x1 x2 x3 (ix2 b j)
    = Cert.Attn.f (bA x0 b) (bK x2 b) (bMa x1 b) (bMk x3 b) j.val := by
  refine (Cert.ReferenceIdeal.Gate.ref_f_of x0 x1 x2 x3 b j
    (Cert.Attn.U (bA x0 b) (bK x2 b) (bMa x1 b) (bMk x3 b)) (Cert.Attn.V (bA x0 b) (bK x2 b) (bMa x1 b) (bMk x3 b))
    (fun k' e' => ref_U x0 x1 x2 x3 b k' e') (fun a' e' => ref_V x0 x1 x2 x3 b a' e')).trans ?_
  unfold Cert.Attn.f
  by_cases h : j.val < 768
  · rw [dif_pos h, dif_pos h]
    rfl
  · have h2 : j.val - 768 < 768 := by have := j.isLt; omega
    rw [dif_neg h, dif_neg h, dif_pos h2]
    rfl

end coordinates

/-! ### The three results that pass through the gates -/

/-- The pooled vectors. -/
theorem out0 : val_main_v101 (F := Ideal) x0 x1 x2 x3 = Gf x0 x1 x2 x3 := by
  funext i
  obtain ⟨b, j, rfl⟩ : ∃ (b : Fin 128) (j : Fin 1536), i = ix2 b j := ⟨i 0, i 1, eq_ix2 i⟩
  exact (ref_f x0 x1 x2 x3 b j).trans (Gf_ix x0 x1 x2 x3 b j).symm

/-- The answer tokens' gates. -/
theorem out4 : val_main_v103 (F := Ideal) x0 x1 x2 x3 = GbA x0 x1 x2 x3 := by
  funext i
  obtain ⟨b, u, a, rfl⟩ : ∃ (b : Fin 128) (u : Fin 1) (a : Fin 1024), i = ix3 b u a := ⟨i 0, i 1, i 2, eq_ix3 i⟩
  obtain rfl : u = 0 := Subsingleton.elim _ _
  exact (Cert.ReferenceIdeal.Gate.ref_out4 x0 x1 x2 x3 b a).trans
    ((ref_betaA x0 x1 x2 x3 b a).trans (GbA_ix x0 x1 x2 x3 b 0 a).symm)

/-- The key tokens' gates. -/
theorem out5 : val_main_v104 (F := Ideal) x0 x1 x2 x3 = GbK x0 x1 x2 x3 := by
  funext i
  obtain ⟨b, u, k, rfl⟩ : ∃ (b : Fin 128) (u : Fin 1) (k : Fin 10), i = ix3 b u k := ⟨i 0, i 1, i 2, eq_ix3 i⟩
  obtain rfl : u = 0 := Subsingleton.elim _ _
  exact (Cert.ReferenceIdeal.Gate.ref_out5 x0 x1 x2 x3 b k).trans
    ((ref_betaK x0 x1 x2 x3 b k).trans (GbK_ix x0 x1 x2 x3 b 0 k).symm)

end Cert.ReferenceIdeal.Out

end
-- ==== Proof.RefWhole.lean ====
/-
  The reference's run, read: each of its six results is the whole-array function of its four arguments.

  The run of the host program ends with each result buffer at the composed term of the operations; that term is the last
  stage, and the stage, index by index, is the specification's function of the batch element's rows.
-/
import proofs.«136482_j5557687681282_2_alg».proof.Proof.RefRun
import proofs.«136482_j5557687681282_2_alg».proof.Proof.RefReadEq
import proofs.«136482_j5557687681282_2_alg».proof.Proof.RefOut

noncomputable section

namespace Cert.ReferenceIdeal.Whole

open Idealize.ShloMosaic Idealize.ShloMosaic.TcCoe Idealize.SL.Sem
open Cert.ReferenceIdeal Cert.ReferenceIdeal.ReadP Cert.Whole

variable (m : (ℓ : Loc nD τ sig) → Buf (Elt Ideal) ℓ) (ρ : Dev nD → PrngReg)

/-- The argument arrays as launched. -/
abbrev B0 (c : Dev nD) : S128x1024x768.Idx → EReal := m ((c.tc : Thread nD τ).loc main_arg0)
abbrev B1 (c : Dev nD) : S128x1024.Idx → EReal := m ((c.tc : Thread nD τ).loc main_arg1)
abbrev B2 (c : Dev nD) : S128x10x768.Idx → EReal := m ((c.tc : Thread nD τ).loc main_arg2)
abbrev B3 (c : Dev nD) : S128x10.Idx → EReal := m ((c.tc : Thread nD τ).loc main_arg3)

/-- Every weakly fair execution of the idealized reference terminates with the six results at the six whole-array
    functions of the arguments as launched, and the arguments unchanged. -/
theorem run : θ_run defs (onTc (τ := τ) (main (F := Ideal))) ⟨m, fun _ => 0, ρ⟩ fun r => ∀ c : Dev nD,
      r.2.mem ((c.tc : Thread nD τ).loc main_v101) = Gf (B0 m c) (B1 m c) (B2 m c) (B3 m c)
      ∧ r.2.mem ((c.tc : Thread nD τ).loc main_v18) = GZ (B0 m c) (B1 m c) (B2 m c) (B3 m c)
      ∧ r.2.mem ((c.tc : Thread nD τ).loc main_v65) = GPa (B0 m c) (B1 m c) (B2 m c) (B3 m c)
      ∧ r.2.mem ((c.tc : Thread nD τ).loc main_v102) = GPkT (B0 m c) (B1 m c) (B2 m c) (B3 m c)
      ∧ r.2.mem ((c.tc : Thread nD τ).loc main_v103) = GbA (B0 m c) (B1 m c) (B2 m c) (B3 m c)
      ∧ r.2.mem ((c.tc : Thread nD τ).loc main_v104) = GbK (B0 m c) (B1 m c) (B2 m c) (B3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((val_main_v101_eq m c).trans (Cert.ReferenceIdeal.Out.out0 _ _ _ _)),
      (h c).2.1.trans ((val_main_v18_eq _ _ _ _).trans (Cert.ReferenceIdeal.Out.out1 _ _ _ _)),
      (h c).2.2.1.trans ((val_main_v65_eq m c).trans (Cert.ReferenceIdeal.Out.out2 _ _ _ _)),
      (h c).2.2.2.1.trans ((val_main_v102_eq m c).trans (Cert.ReferenceIdeal.Out.out3 _ _ _ _)),
      (h c).2.2.2.2.1.trans ((val_main_v103_eq _ _ _ _).trans (Cert.ReferenceIdeal.Out.out4 _ _ _ _)),
      (h c).2.2.2.2.2.1.trans ((val_main_v104_eq _ _ _ _).trans (Cert.ReferenceIdeal.Out.out5 _ _ _ _)),
      (h c).2.2.2.2.2.2⟩)
    (Cert.ReferenceIdeal.ValueP.run (F := Ideal) m ρ)

end Cert.ReferenceIdeal.Whole

end
-- ==== Proof.lean ====
/-
  Key attention over 128 batch elements: the kernel against its reference, on the extended reals.

  For each batch element the kernel — one grid point per batch element, each staging that element's blocks — and the
  reference compute: the masked rows; the scores Z = (masked keys)·(masked answers)ᵀ; the softmax of the biased scores over
  the key tokens and over the answer tokens; the attended rows, masked again; the cosine scores and from them the sigmoid
  gates; the gated rows pooled by a maximum over the tokens; and they return the pooled vectors, the scores, the two
  softmaxes (one transposed) and the two gate vectors.  Read on the extended reals the two programs apply the same
  operations in the same order to the same operands: a matrix product into a zero accumulator is the same finite sum as
  the batched contraction, a lane reduction the same sum or the same fold of max as the host's reduction, a change of float
  format the identity, and the kernel's one-operation sigmoid is by definition 1 / (1 + exp (−x)), which the reference spells
  out.  No law of arithmetic beyond re-indexing a sum is used, so finiteness of the inputs is never needed.

  The modules: Spec (the functions of one batch element's rows), Rows and Whole (rows of blocks and of arrays; the six results
  as whole arrays), KernelBase / KernelTail / KernelOut / KernelOutB (the kernel body's values read at an index), KernelArr
  (from the blocks a grid point writes to the arrays the run ends with, and the host's re-laying of the pooled vectors),
  RefBase / RefSoft / RefGate / RefOut / RefWhole (the reference's stages read at an index, and its run).
-/
import proofs.«136482_j5557687681282_2_alg».proof.Defs
import proofs.«136482_j5557687681282_2_alg».proof.Proof.Gen.Kernel
import proofs.«136482_j5557687681282_2_alg».proof.Proof.Gen.Kernel.Frame
import proofs.«136482_j5557687681282_2_alg».proof.Proof.Gen.KernelIdeal
import proofs.«136482_j5557687681282_2_alg».proof.Proof.Gen.KernelIdeal.Frame
import proofs.«136482_j5557687681282_2_alg».proof.Proof.Gen.ReferenceIdeal
import proofs.«136482_j5557687681282_2_alg».proof.Proof.Gen.Pre_finite_inputs
import proofs.«136482_j5557687681282_2_alg».proof.Proof.KernelArr
import proofs.«136482_j5557687681282_2_alg».proof.Proof.KernelOut
import proofs.«136482_j5557687681282_2_alg».proof.Proof.KernelOutB
import proofs.«136482_j5557687681282_2_alg».proof.Proof.RefWhole
import Idealize.ShloMosaic.Adequacy
import Idealize.ShloMosaic.Init

noncomputable section

namespace Cert.Proof

open Idealize.ShloMosaic Idealize.SL.Sem Cert.Whole

/-- The three programs run, fault-free, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2) (Cert.ReferenceIdeal.Whole.run m ρ)

/-- The idealization rewrote nothing. -/
theorem preserves : Cert.preserves_Kernel_KernelIdeal := trivial

/-- Run from memories that agree on the arguments, both idealized programs end with the same six arrays. -/
theorem algebraic : Cert.algebraic_KernelIdeal_ReferenceIdeal := by
  intro m ρ m' ρ' _ hagree
  refine ⟨fun c => Gf (Cert.KernelIdeal.Arr.A0 m c) (Cert.KernelIdeal.Arr.A1 m c) (Cert.KernelIdeal.Arr.A2 m c) (Cert.KernelIdeal.Arr.A3 m c),
    fun c => GZ (Cert.KernelIdeal.Arr.A0 m c) (Cert.KernelIdeal.Arr.A1 m c) (Cert.KernelIdeal.Arr.A2 m c) (Cert.KernelIdeal.Arr.A3 m c),
    fun c => GPa (Cert.KernelIdeal.Arr.A0 m c) (Cert.KernelIdeal.Arr.A1 m c) (Cert.KernelIdeal.Arr.A2 m c) (Cert.KernelIdeal.Arr.A3 m c),
    fun c => GPkT (Cert.KernelIdeal.Arr.A0 m c) (Cert.KernelIdeal.Arr.A1 m c) (Cert.KernelIdeal.Arr.A2 m c) (Cert.KernelIdeal.Arr.A3 m c),
    fun c => GbA (Cert.KernelIdeal.Arr.A0 m c) (Cert.KernelIdeal.Arr.A1 m c) (Cert.KernelIdeal.Arr.A2 m c) (Cert.KernelIdeal.Arr.A3 m c),
    fun c => GbK (Cert.KernelIdeal.Arr.A0 m c) (Cert.KernelIdeal.Arr.A1 m c) (Cert.KernelIdeal.Arr.A2 m c) (Cert.KernelIdeal.Arr.A3 m c),
    Cert.KernelIdeal.Arr.run m ρ Cert.KernelIdeal.Rows.out4_apply Cert.KernelIdeal.Rows.out5_apply
      Cert.KernelIdeal.Rows.out6_apply Cert.KernelIdeal.Rows.out7_apply Cert.KernelIdeal.Rows.out8_apply
      Cert.KernelIdeal.Rows.out9_apply, ?_⟩
  refine (θ_run Cert.ReferenceIdeal.defs _ _).mono (fun _ h c => ?_) (Cert.ReferenceIdeal.Whole.run m' ρ')
  obtain ⟨g0, g1, g2, g3⟩ := hagree c
  obtain ⟨h0, h1, h2, h3, h4, h5, hargs⟩ := h c
  have e0 : Cert.ReferenceIdeal.Whole.B0 m' c = Cert.KernelIdeal.Arr.A0 m c := g0
  have e1 : Cert.ReferenceIdeal.Whole.B1 m' c = Cert.KernelIdeal.Arr.A1 m c := g1
  have e2 : Cert.ReferenceIdeal.Whole.B2 m' c = Cert.KernelIdeal.Arr.A2 m c := g2
  have e3 : Cert.ReferenceIdeal.Whole.B3 m' c = Cert.KernelIdeal.Arr.A3 m c := g3
  rw [e0, e1, e2, e3] at h0 h1 h2 h3 h4 h5
  exact ⟨h0, h1, h2, h3, h4, h5, hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
